-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x112 : Shape := ⟨2, ![128, 112]⟩
abbrev S112 : Shape := ⟨1, ![112]⟩
abbrev S20x16 : Shape := ⟨2, ![20, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x112 : S_.BroadcastsInDim S128x112 (![] : Fin 0 → Fin S128x112.rank)
  reducesTo_S128x112_S_d0_1 : S128x112.ReducesTo [0, 1] S_
  bcast_S_S112 : S_.BroadcastsInDim S112 (![] : Fin 0 → Fin S112.rank)
  reducesTo_S112_S_d0 : S112.ReducesTo [0] S_
  bcast_S_S20x16 : S_.BroadcastsInDim S20x16 (![] : Fin 0 → Fin S20x16.rank)
  reducesTo_S20x16_S_d0_1 : S20x16.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S100000 32) (main_v13 : IVec S_ 1) (main_v16 : IVec S20x16 1) : IVec S_ 1 :=
  let main_c_5 : IVec S_ 1 := constantI S_ 1 1#1
  let main_v17 : IVec S_ 1 := (fun x v => Host.reduce IntOp.andi x v reducesTo_S20x16_S_d0_1 h_S_) main_v16 main_c_5
  let main_v18 : IVec S_ 1 := andi main_v13 main_v17
  let main_c_6 : IVec S_ 32 := constantI S_ 32 0#32
  let main_v19 : IVec S100000 32 := broadcastInDim S100000 ![] bcast_S_S100000 main_c_6
  let main_v20 : IVec S100000 1 := cmpi .sge main_arg1 main_v19
  let main_c_7 : IVec S_ 32 := constantI S_ 32 20#32
  let main_v21 : IVec S100000 32 := broadcastInDim S100000 ![] bcast_S_S100000 main_c_7
  let main_v22 : IVec S100000 1 := cmpi .slt main_arg1 main_v21
  let main_v23 : IVec S100000 1 := andi main_v20 main_v22
  let main_c_8 : IVec S_ 1 := constantI S_ 1 1#1
  let main_v24 : IVec S_ 1 := (fun x v => Host.reduce IntOp.andi x v reducesTo_S100000_S_d0 h_S_) main_v23 main_c_8
  let main_v25 : IVec S_ 1 := andi main_v18 main_v24
  main_v25

def fn {F : FTy → Type} [FloatOps F] (main_arg0 : FVec F S100000x128 .f32) (main_arg1 : IVec S100000 32) (main_arg2 : FVec F S128x112 .f32) (main_arg3 : FVec F S112 .f32) (main_arg4 : FVec F S20x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x112 .f32 := Host.absf main_arg2
  let main_cst_0 : FVec F S_ .f32 := constant S_ .f32 0x7F800000#32
  let main_v5 : FVec F S128x112 .f32 := broadcastInDim S128x112 ![] bcast_S_S128x112 main_cst_0
  let main_v6 : IVec S128x112 1 := cmpf .olt main_v4 main_v5
  let main_c_1 : IVec S_ 1 := constantI S_ 1 1#1
  let main_v7 : IVec S_ 1 := (fun x v => Host.reduce IntOp.andi x v reducesTo_S128x112_S_d0_1 h_S_) main_v6 main_c_1
  let main_v8 : IVec S_ 1 := andi main_v3 main_v7
  let main_v9 : FVec F S112 .f32 := Host.absf main_arg3
  let main_cst_2 : FVec F S_ .f32 := constant S_ .f32 0x7F800000#32
  let main_v10 : FVec F S112 .f32 := broadcastInDim S112 ![] bcast_S_S112 main_cst_2
  let main_v11 : IVec S112 1 := cmpf .olt main_v9 main_v10
  let main_c_3 : IVec S_ 1 := constantI S_ 1 1#1
  let main_v12 : IVec S_ 1 := (fun x v => Host.reduce IntOp.andi x v reducesTo_S112_S_d0 h_S_) main_v11 main_c_3
  let main_v13 : IVec S_ 1 := andi main_v8 main_v12
  let main_v14 : FVec F S20x16 .f32 := Host.absf main_arg4
  let main_cst_4 : FVec F S_ .f32 := constant S_ .f32 0x7F800000#32
  let main_v15 : FVec F S20x16 .f32 := broadcastInDim S20x16 ![] bcast_S_S20x16 main_cst_4
  let main_v16 : IVec S20x16 1 := cmpf .olt main_v14 main_v15
  fn_part1 (F := F) main_arg1 main_v13 main_v16
-- ==== Kernel.lean ====
abbrev S100000x128 : Shape := ⟨2, ![100000, 128]⟩
abbrev S100000 : Shape := ⟨1, ![100000]⟩
abbrev S128x112 : Shape := ⟨2, ![128, 112]⟩
abbrev S112 : Shape := ⟨1, ![112]⟩
abbrev S20x16 : Shape := ⟨2, ![20, 16]⟩
abbrev S_ : Shape := ⟨0, ![]⟩
abbrev S112000 : Shape := ⟨1, ![112000]⟩
abbrev S1 : Shape := ⟨1, ![1]⟩
abbrev S7x1x16000 : Shape := ⟨3, ![7, 1, 16000]⟩
abbrev S1x112 : Shape := ⟨2, ![1, 112]⟩
abbrev S32x16 : Shape := ⟨2, ![32, 16]⟩
abbrev S16000x128 : Shape := ⟨2, ![16000, 128]⟩
abbrev S1x1x16000 : Shape := ⟨3, ![1, 1, 16000]⟩
abbrev S16000x112 : Shape := ⟨2, ![16000, 112]⟩
abbrev S1x16000 : Shape := ⟨2, ![1, 16000]⟩
abbrev S32x16000 : Shape := ⟨2, ![32, 16000]⟩
abbrev S16000x16 : Shape := ⟨2, ![16000, 16]⟩

abbrev nBuf : Space → Nat
  | .hbm => 18
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x112, .f32⟩
  | .hbm, ⟨3, _⟩ => ⟨S112, .f32⟩
  | .hbm, ⟨4, _⟩ => ⟨S20x16, .f32⟩
  | .hbm, ⟨5, _⟩ => ⟨S_, .i32⟩
  | .hbm, ⟨6, _⟩ => ⟨S112000, .i32⟩
  | .hbm, ⟨7, _⟩ => ⟨S_, .i32⟩
  | .hbm, ⟨8, _⟩ => ⟨S1, .i32⟩
  | .hbm, ⟨9, _⟩ => ⟨S112000, .i32⟩
  | .hbm, ⟨10, _⟩ => ⟨S7x1x16000, .i32⟩
  | .hbm, ⟨11, _⟩ => ⟨S1x112, .f32⟩
  | .hbm, ⟨12, _⟩ => ⟨S_, .f32⟩
  | .hbm, ⟨13, _⟩ => ⟨S32x16, .f32⟩
  | .hbm, ⟨14, _⟩ => ⟨S_, .i32⟩
  | .hbm, ⟨15, _⟩ => ⟨S1, .i32⟩
  | .hbm, ⟨16, _⟩ => ⟨S32x16, .f32⟩
  | .hbm, ⟨17, _⟩ => ⟨S100000x128, .f32⟩
  | .local _ .vmem, ⟨0, _⟩ => ⟨S16000x128, .f32⟩
  | .local _ .vmem, ⟨1, _⟩ => ⟨S16000x128, .f32⟩
  | .local _ .vmem, ⟨2, _⟩ => ⟨S1x1x16000, .i32⟩
  | .local _ .vmem, ⟨3, _⟩ => ⟨S1x1x16000, .i32⟩
  | .local _ .vmem, ⟨4, _⟩ => ⟨S128x112, .f32⟩
  | .local _ .vmem, ⟨5, _⟩ => ⟨S1x112, .f32⟩
  | .local _ .vmem, ⟨6, _⟩ => ⟨S32x16, .f32⟩
  | .local _ .vmem, ⟨7, _⟩ => ⟨S16000x128, .f32⟩
  | .local _ .vmem, ⟨8, _⟩ => ⟨S16000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S112000 : S_.BroadcastsInDim S112000 (![] : Fin 0 → Fin S112000.rank)
  bcast_S_S1 : S_.BroadcastsInDim S1 (![] : Fin 0 → Fin S1.rank)
  shapeCasts_S112000_S7x1x16000 : S112000.ShapeCasts S7x1x16000
  shapeCasts_S112_S1x112 : S112.ShapeCasts S1x112
  bcast_S_S32x16 : S_.BroadcastsInDim S32x16 (![] : Fin 0 → Fin S32x16.rank)
  inb_S16000x128_S16000x128_0_0 : ∀ a, (![0, 0] : Fin 2 → Nat) a + S16000x128.size a ≤ S16000x128.size a
  h_S16000x128 : 0 < S16000x128.numel
  inb_S128x112_S128x112_0_0 : ∀ a, (![0, 0] : Fin 2 → Nat) a + S128x112.size a ≤ S128x112.size a
  h_S128x112 : 0 < S128x112.numel
  inb_S1x112_S1x112_0_0 : ∀ a, (![0, 0] : Fin 2 → Nat) a + S1x112.size a ≤ S1x112.size a
  h_S1x112 : 0 < S1x112.numel
  shapeCasts_S1x112_S112 : S1x112.ShapeCasts S112
  broadcasts_S1x112_S16000x112 : S1x112.Broadcasts S16000x112
  inb_S16000x128_S16000x112_0_0 : ∀ a, (![0, 0] : Fin 2 → Nat) a + S16000x112.size a ≤ S16000x128.size a
  h_S16000x112 : 0 < S16000x112.numel
  inb_S1x1x16000_S1x1x16000_0_0_0 : ∀ a, (![0, 0, 0] : Fin 3 → Nat) a + S1x1x16000.size a ≤ S1x1x16000.size a
  h_S1x1x16000 : 0 < S1x1x16000.numel
  shapeCasts_S1x1x16000_S1x16000 : S1x1x16000.ShapeCasts S1x16000
  iota_S32x16000_d0_w32 : S32x16000.Iotas .tc 32 [0]
  broadcasts_S1x16000_S32x16000 : S1x16000.Broadcasts S32x16000
  natLt_1_32 : 1 < 32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16000x128_S16000x16_0_112 : ∀ a, (![0, 112] : Fin 2 → Nat) a + S16000x16.size a ≤ S16000x128.size a
  h_S16000x16 : 0 < S16000x16.numel
  scatter_S112000_S1_S100000_0_n_0_0_wf : ScatterDims.WF S112000 S1 S100000 [0] [] [0] 0
  scatter_S32x16_S1_S20x16_01_n_0_0_wf : ScatterDims.WF S32x16 S1 S20x16 [0, 1] [] [0] 0
  dot_S16000x128_S128x112_S16000x112_1_0_0_1_n_n_wf : DotDims.WF S16000x128 S128x112 S16000x112 [1] [0] [0] [1] [] []
  dot_S32x16000_S32x16_S16000x16_0_0_1_1_n_n_wf : DotDims.WF S32x16000 S32x16 S16000x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16000x128.size a < S100000x128.size a
  hwx0_0 : ∀ i : grid0.Coords, EltTy.bits .f32 = 32 ∨ (Rect.unit (s := S100000x128) (fun a => cc0_transform_0 i a * S16000x128.size a) (fun a => (Pipeline.Clip.of (cc0_transform_0 i a) (S16000x128.size a) (S100000x128.size a)).extent (S16000x128.size a)) fun a => Pipeline.Clip.inb (Pipeline.Clip.ok_of (hstart0_0 i a))).WholeWords (EltTy.packing .f32)
  hwxs0_0 : ∀ i : grid0.Coords, EltTy.bits .f32 = 32 ∨ (Rect.unit (s := S16000x128) (fun _ => 0) (fun a => (Pipeline.Clip.of (cc0_transform_0 i a) (S16000x128.size a) (S100000x128.size a)).extent (S16000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16000.size a ≤ S7x1x16000.size a
  hwx0_1 : ∀ i : grid0.Coords, EltTy.bits .i32 = 32 ∨ (Rect.block (s := S7x1x16000) S1x1x16000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x112.size a ≤ S128x112.size a
  hwx0_2 : ∀ i : grid0.Coords, EltTy.bits .f32 = 32 ∨ (Rect.block (s := S128x112) S128x112.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x112.size a ≤ S1x112.size a
  hwx0_3 : ∀ i : grid0.Coords, EltTy.bits .f32 = 32 ∨ (Rect.block (s := S1x112) S1x112.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16000x128.size a < S100000x128.size a
  hwx0_5 : ∀ i : grid0.Coords, EltTy.bits .f32 = 32 ∨ (Rect.unit (s := S100000x128) (fun a => cc0_transform_5 i a * S16000x128.size a) (fun a => (Pipeline.Clip.of (cc0_transform_5 i a) (S16000x128.size a) (S100000x128.size a)).extent (S16000x128.size a)) fun a => Pipeline.Clip.inb (Pipeline.Clip.ok_of (hstart0_5 i a))).WholeWords (EltTy.packing .f32)
  hwxs0_5 : ∀ i : grid0.Coords, EltTy.bits .f32 = 32 ∨ (Rect.unit (s := S16000x128) (fun _ => 0) (fun a => (Pipeline.Clip.of (cc0_transform_5 i a) (S16000x128.size a) (S100000x128.size a)).extent (S16000x128.size a)) fun a => (Nat.zero_add _).trans_le (Pipeline.Clip.extent_le (Pipeline.Clip.ok_of (hstart0_5 i a)))).WholeWords (EltTy.packing .f32)

variable [Facts₀]

def scatter_S112000_S1_S100000_0_n_0_0 : ScatterDims S112000 S1 S100000 where
  updateWindowDims := [0]
  insertedWindowDims := []
  scatterDimsToOperandDims := [0]
  indexVectorDim := 0
  wf := scatter_S112000_S1_S100000_0_n_0_0_wf
def scatter_S32x16_S1_S20x16_01_n_0_0 : ScatterDims S32x16 S1 S20x16 where
  updateWindowDims := [0, 1]
  insertedWindowDims := []
  scatterDimsToOperandDims := [0]
  indexVectorDim := 0
  wf := scatter_S32x16_S1_S20x16_01_n_0_0_wf
def dot_S16000x128_S128x112_S16000x112_1_0_0_1_n_n : DotDims S16000x128 S128x112 S16000x112 where
  lhsContracting := [1]
  rhsContracting := [0]
  lhsNonContracting := [0]
  rhsNonContracting := [1]
  lhsBatch := []
  rhsBatch := []
  wf := dot_S16000x128_S128x112_S16000x112_1_0_0_1_n_n_wf
def dot_S32x16000_S32x16_S16000x16_0_0_1_1_n_n : DotDims S32x16000 S32x16 S16000x16 where
  lhsContracting := [0]
  rhsContracting := [0]
  lhsNonContracting := [1]
  rhsNonContracting := [1]
  lhsBatch := []
  rhsBatch := []
  wf := dot_S32x16000_S32x16_S16000x16_0_0_1_1_n_n_wf

abbrev win0_0 : Pipeline.Window sig grid0 :=
  Pipeline.Window.ofSpecClip (Memref.whole main_arg0) S16000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S1x1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v8) S16000x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000 : Shape := ⟨1, ![100000]⟩
abbrev S128x112 : Shape := ⟨2, ![128, 112]⟩
abbrev S112 : Shape := ⟨1, ![112]⟩
abbrev S20x16 : Shape := ⟨2, ![20, 16]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x16 : Shape := ⟨2, ![100000, 16]⟩
abbrev S100000x112 : Shape := ⟨2, ![100000, 112]⟩
abbrev S1x112 : Shape := ⟨2, ![1, 112]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x112, .f32⟩
  | .hbm, ⟨3, _⟩ => ⟨S112, .f32⟩
  | .hbm, ⟨4, _⟩ => ⟨S20x16, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S1, .i32⟩
  | .hbm, ⟨14, _⟩ => ⟨S_, .i32⟩
  | .hbm, ⟨15, _⟩ => ⟨S100000x1, .i32⟩
  | .hbm, ⟨16, _⟩ => ⟨S100000x1, .i1⟩
  | .hbm, ⟨17, _⟩ => ⟨S1x1, .i32⟩
  | .hbm, ⟨18, _⟩ => ⟨S100000x1, .i32⟩
  | .hbm, ⟨19, _⟩ => ⟨S100000x1, .i1⟩
  | .hbm, ⟨20, _⟩ => ⟨S100000x1, .i1⟩
  | .hbm, ⟨21, _⟩ => ⟨S_, .i1⟩
  | .hbm, ⟨22, _⟩ => ⟨S100000, .i1⟩
  | .hbm, ⟨23, _⟩ => ⟨S100000x16, .f32⟩
  | .hbm, ⟨24, _⟩ => ⟨S100000x16, .i1⟩
  | .hbm, ⟨25, _⟩ => ⟨S_, .f32⟩
  | .hbm, ⟨26, _⟩ => ⟨S100000x16, .f32⟩
  | .hbm, ⟨27, _⟩ => ⟨S100000x16, .f32⟩
  | .hbm, ⟨28, _⟩ => ⟨S100000x112, .f32⟩
  | .hbm, ⟨29, _⟩ => ⟨S1x112, .f32⟩
  | .hbm, ⟨30, _⟩ => ⟨S100000x112, .f32⟩
  | .hbm, ⟨31, _⟩ => ⟨S100000x112, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x16_0 : S100000.BroadcastsInDim S100000x16 (![0] : Fin 1 → Fin S100000x16.rank)
  bcast_S_S100000x16 : S_.BroadcastsInDim S100000x16 (![] : Fin 0 → Fin S100000x16.rank)
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  concatenates_S100000x112_S100000x16_S100000x128_d1 : Shape.Concatenates [S100000x112, S100000x16] S100000x128 1
  gather_S20x16_S100000x1_S100000x16_1_0_n_n_0_1_116_wf : GatherDims.WF S20x16 S100000x1 S100000x16 [1] [0] [] [0] [] 1 ![1, 16]
  dot_S100000x128_S128x112_S100000x112_1_0_0_1_n_n_wf : DotDims.WF S100000x128 S128x112 S100000x112 [1] [0] [0] [1] [] []

variable [Facts₀]

def gather_S20x16_S100000x1_S100000x16_1_0_n_n_0_1_116 : GatherDims S20x16 S100000x1 S100000x16 where
  offsetDims := [1]
  collapsedSliceDims := [0]
  operandBatchingDims := []
  startIndicesBatchingDims := []
  startIndexMap := [0]
  indexVectorDim := 1
  sliceSizes := ![1, 16]
  wf := gather_S20x16_S100000x1_S100000x16_1_0_n_n_0_1_116_wf
def dot_S100000x128_S128x112_S100000x112_1_0_0_1_n_n : DotDims S100000x128 S128x112 S100000x112 where
  lhsContracting := [1]
  rhsContracting := [0]
  lhsNonContracting := [0]
  rhsNonContracting := [1]
  lhsBatch := []
  rhsBatch := []
  wf := dot_S100000x128_S128x112_S100000x112_1_0_0_1_n_n_wf

class Facts : Prop extends Facts₀ where

variable [Facts]
-- ==== Proof.BodyBits.lean ====
/-
  The kernel body at one grid point, and the pipeline's proof data.

  At a grid point the body reads five staging buffers — a block of 16000 rows of `x`, the 16000 ids of those
  rows, the weight matrix, the bias row and the table padded to 32 rows — and writes the 16000 × 128 result block
  by two stores: columns 0‥111 (the rows of `x` against `W`, plus the bias) and columns 112‥127 (the one-hot
  product that selects a table row per id). The two rectangles tile the block, so after the body the result
  buffer holds one function of the five inputs (`out5`).

  The last of the seven blocks of `x` and of the result overhangs the 100000-row arrays by 12000 rows. The fetch
  fills those rows of the staging buffer with words nothing names, and the write-back drops them; what the
  proof data states of the two clipped windows is therefore stated on the rows inside the array only.
-/
import proofs.«139606_g12386685681749_retrytranche1_195_15_alg».proof.Proof.Gen.Kernel.Skeleton
import proofs.«139606_g12386685681749_retrytranche1_195_15_alg».proof.Proof.Gen.Kernel.Frame
import Idealize.ShloMosaic.Lib.Pipeline.FrameBody
import Idealize.ShloMosaic.Lib.Pipeline.Cells
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rX : Rect S16000x128 := Rect.unit (s := S16000x128) ![0, 0] S16000x128.size inb_S16000x128_S16000x128_0_0
abbrev rId : Rect S1x1x16000 := Rect.unit (s := S1x1x16000) ![0, 0, 0] S1x1x16000.size inb_S1x1x16000_S1x1x16000_0_0_0
abbrev rW : Rect S128x112 := Rect.unit (s := S128x112) ![0, 0] S128x112.size inb_S128x112_S128x112_0_0
abbrev rB : Rect S1x112 := Rect.unit (s := S1x112) ![0, 0] S1x112.size inb_S1x112_S1x112_0_0
abbrev rPe : Rect S32x16 := Rect.unit (s := S32x16) ![0, 0] S32x16.size inb_S32x16_S32x16_0_0
/-- Columns 0‥111 of the result block. -/
abbrev rLin : Rect S16000x128 := Rect.unit (s := S16000x128) ![0, 0] S16000x112.size inb_S16000x128_S16000x112_0_0
/-- Columns 112‥127 of the result block. -/
abbrev rEmb : Rect S16000x128 := Rect.unit (s := S16000x128) ![0, 112] S16000x16.size inb_S16000x128_S16000x16_0_112

/-! ## What the body leaves in the result buffer -/

/-- The result buffer after the body, from what the five input buffers hold: its two stores as pieces, the later
    one first. -/
def out5 (x0 : Vec F S16000x128 .f32) (x1 : Vec F S1x1x16000 .i32) (x2 : Vec F S128x112 .f32) (x3 : Vec F S1x112 .f32)
    (x4 : Vec F S32x16 .f32) : Vec F S16000x128 .f32 :=
  View.canon [⟨rEmb, k0_pay2 (View.ld x1 rId) (View.ld x4 rPe)⟩, ⟨rLin, k0_pay1 (View.ld x0 rX) (View.ld x2 rW) (View.ld x3 rB)⟩]

/-- The two column ranges together are the block: every index lies in one of the two stores' rectangles. -/
theorem cover5 (p1 : Vec F S16000x16 .f32) (p0 : Vec F S16000x112 .f32) (y : S16000x128.Idx) :
    ∃ pc ∈ ([⟨rEmb, p1⟩, ⟨rLin, p0⟩] : List (View.Piece (Elt F) S16000x128 .f32)), y ∈ pc.1.set :=
  View.cover_of_tiledBy [⟨rEmb, p1⟩, ⟨rLin, p0⟩] ![16000, 16] (by sl_kernel_rfl) y

/-! ## The body's triple -/

set_option maxHeartbeats 1000000 in
/-- The body on whole staging buffers, the five inputs at contents `x0 … x4` and the result's at anything, runs to a
    state where the inputs are as they were and the result's buffer holds `out5` of them. -/
theorem sound_kernel (c : Dev nD) (E : Set ℕ) (i : grid0.Coords)
    (arg1 : Memref sig .tc .vmem S16000x128 .f32) (harg1 : arg1.IsWhole) (arg2 : Memref sig .tc .vmem S1x1x16000 .i32) (harg2 : arg2.IsWhole)
    (arg3 : Memref sig .tc .vmem S128x112 .f32) (harg3 : arg3.IsWhole) (arg4 : Memref sig .tc .vmem S1x112 .f32) (harg4 : arg4.IsWhole)
    (arg5 : Memref sig .tc .vmem S32x16 .f32) (harg5 : arg5.IsWhole) (arg6 : Memref sig .tc .vmem S16000x128 .f32) (harg6 : arg6.IsWhole)
    (x0 : Vec F S16000x128 .f32) (x1 : Vec F S1x1x16000 .i32) (x2 : Vec F S128x112 .f32) (x3 : Vec F S1x112 .f32) (x4 : Vec F S32x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The pipeline's proof data -/

/-- Block `t` of `x` as the fetch reads it — its rows inside the array — filled out past the array's end with words
    of the proof's choosing, which nothing the claim states depends on. -/
def xfill (c : Dev nD) (t : Fin cfg0.N) : Vec F S16000x128 .f32 :=
  (cfg0.win 0).fill (cfg0.grid.coords t) (fun _ => Classical.choice (Elt.nonempty F EltTy.f32)) (iblk m c 0 t)

/-- The proof data of the pipeline on core `c`: the arrays as the region finds them; after the body at point `t` each
    input's buffer at its block (the clipped one filled out as `xfill`) and the result's at `out5` of those; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => out5 (xfill m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (xfill m c t) (iblk m c 1 t) (iblk m c 2 t) (iblk m c 3 t) (iblk m c 4 t) := by dsimp only [dats]

/-- The clipped input is fetched at every point: its buffer holds the block on the rows the fetch fills and
    whatever was there (`d`) on the others. -/
theorem before0_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]
/-- The four whole inputs hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer is written back at every point: the body finds it at contents nothing names. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-- On the rows the transfers move, the clipped input's buffer holds its block whatever filled it out. -/
theorem cut_xfill (c : Dev nD) (t : Fin cfg0.N) :
    (cfg0.win 0).cut (cfg0.grid.coords t) (xfill m c t) = iblk m c 0 t := (cfg0.win 0).cut_fill _ _ _

/-! ## The body at a point, the result window forgotten

For the frame alone nothing is stated of what the body leaves in the result's buffer: the window is handed to the
body at any contents and taken back at any contents. -/

/-- Which windows the frame's proof data forgets: the result's. -/
abbrev fgt5 : Fin 6 → Bool := fun | 0 => false | 1 => false | 2 => false | 3 => false | 4 => false | 5 => true | ⟨_ + 6, h⟩ => absurd h (Nat.not_lt.2 (Nat.le_add_left _ _))

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, cut_xfill]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel c Set.univ (grid0.coords t) _ _ _ _ _ _ _ _ _ _ _ _
    ((cfg0.win 0).fill (cfg0.grid.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists _; iexact H5

/-- The pipeline's body obligation with the result window forgotten, at every point. -/
theorem body_obligationF (c : Dev nD) :
    BodyObligationLoose (dats (F := F) m 0 c) (defs₀ (F := F)) Variants.none () Set.univ fgt5 := fun t => by
  rw [bigSep_W0, bigSep_W0]
  exact sound_bodyF m c t

/-! ## The frame, the result window forgotten -/

set_option backward.isDefEq.respectTransparency.types false in
/-- Every weakly fair execution of @main terminates, faulting nowhere, and ends with every input array of the
    pipeline at its entry contents and every other unscoped buffer as the region found it; of the result array
    only that it holds something. -/
theorem run_forget : θ_run defs (onTc (τ := τ) (main (F := F))) (s₀ m ρ)
    (RDat.FramePost cfg0 (fun c => (dats m 0 c).toRForget fgt5) (V m)) :=
  Pipeline.RDat.θ_run_frame cfgs (0 : Fin 1) launch0 defs₀ Variants.none (fun c => (dats m 0 c).toRForget fgt5) m ρ main
    (hbody := fun c => (body_obligationF m c).toRForget) (hshare := fun c => (dats m 0 c).share_full fun _ => rfl)
    (howed := fun _ _ => rfl) (V := V m) (hmain := hmain m Variants.none) (hA := A_eq m) (hΦ := fun _ _ => rfl)

/-- The frame claim's post: the five argument arrays end as they were launched — the two the pipeline stages
    because an input window's array is never written, the three it does not because nothing touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (Eq.mp (congrFun (RDat.ArrAt_in ((dats m 0 c).toRForget fgt5) 0 rfl cfg0.N) _) ((h c).1 0)).trans ((A_eq m c 0).trans (V_main_arg0 m c)),
      ((h c).2 main_arg1 (Pipeline.mem_restRefs_of main_arg1 (by decide) (by decide))).trans (V_main_arg1 m c),
      (Eq.mp (congrFun (RDat.ArrAt_in ((dats m 0 c).toRForget fgt5) 2 rfl cfg0.N) _) ((h c).1 2)).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_forget m ρ)

end Cert.Kernel.Body

end
-- ==== Proof.BodyIdeal.lean ====
/-
  The kernel body at one grid point, and the pipeline's proof data.

  At a grid point the body reads five staging buffers — a block of 16000 rows of `x`, the 16000 ids of those
  rows, the weight matrix, the bias row and the table padded to 32 rows — and writes the 16000 × 128 result block
  by two stores: columns 0‥111 (the rows of `x` against `W`, plus the bias) and columns 112‥127 (the one-hot
  product that selects a table row per id). The two rectangles tile the block, so after the body the result
  buffer holds one function of the five inputs (`out5`).

  The last of the seven blocks of `x` and of the result overhangs the 100000-row arrays by 12000 rows. The fetch
  fills those rows of the staging buffer with words nothing names, and the write-back drops them; what the
  proof data states of the two clipped windows is therefore stated on the rows inside the array only.
-/
import proofs.«139606_g12386685681749_retrytranche1_195_15_alg».proof.Proof.Gen.KernelIdeal.Skeleton
import proofs.«139606_g12386685681749_retrytranche1_195_15_alg».proof.Proof.Gen.KernelIdeal.Frame
import Idealize.ShloMosaic.Lib.Pipeline.FrameBody
import Idealize.ShloMosaic.Lib.Pipeline.Cells
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev rX : Rect S16000x128 := Rect.unit (s := S16000x128) ![0, 0] S16000x128.size inb_S16000x128_S16000x128_0_0
abbrev rId : Rect S1x1x16000 := Rect.unit (s := S1x1x16000) ![0, 0, 0] S1x1x16000.size inb_S1x1x16000_S1x1x16000_0_0_0
abbrev rW : Rect S128x112 := Rect.unit (s := S128x112) ![0, 0] S128x112.size inb_S128x112_S128x112_0_0
abbrev rB : Rect S1x112 := Rect.unit (s := S1x112) ![0, 0] S1x112.size inb_S1x112_S1x112_0_0
abbrev rPe : Rect S32x16 := Rect.unit (s := S32x16) ![0, 0] S32x16.size inb_S32x16_S32x16_0_0
/-- Columns 0‥111 of the result block. -/
abbrev rLin : Rect S16000x128 := Rect.unit (s := S16000x128) ![0, 0] S16000x112.size inb_S16000x128_S16000x112_0_0
/-- Columns 112‥127 of the result block. -/
abbrev rEmb : Rect S16000x128 := Rect.unit (s := S16000x128) ![0, 112] S16000x16.size inb_S16000x128_S16000x16_0_112

/-! ## What the body leaves in the result buffer -/

/-- The result buffer after the body, from what the five input buffers hold: its two stores as pieces, the later
    one first. -/
def out5 (x0 : Vec F S16000x128 .f32) (x1 : Vec F S1x1x16000 .i32) (x2 : Vec F S128x112 .f32) (x3 : Vec F S1x112 .f32)
    (x4 : Vec F S32x16 .f32) : Vec F S16000x128 .f32 :=
  View.canon [⟨rEmb, k0_pay2 (View.ld x1 rId) (View.ld x4 rPe)⟩, ⟨rLin, k0_pay1 (View.ld x0 rX) (View.ld x2 rW) (View.ld x3 rB)⟩]

/-- The two column ranges together are the block: every index lies in one of the two stores' rectangles. -/
theorem cover5 (p1 : Vec F S16000x16 .f32) (p0 : Vec F S16000x112 .f32) (y : S16000x128.Idx) :
    ∃ pc ∈ ([⟨rEmb, p1⟩, ⟨rLin, p0⟩] : List (View.Piece (Elt F) S16000x128 .f32)), y ∈ pc.1.set :=
  View.cover_of_tiledBy [⟨rEmb, p1⟩, ⟨rLin, p0⟩] ![16000, 16] (by sl_kernel_rfl) y

/-! ## The body's triple -/

set_option maxHeartbeats 1000000 in
/-- The body on whole staging buffers, the five inputs at contents `x0 … x4` and the result's at anything, runs to a
    state where the inputs are as they were and the result's buffer holds `out5` of them. -/
theorem sound_kernel (c : Dev nD) (E : Set ℕ) (i : grid0.Coords)
    (arg1 : Memref sig .tc .vmem S16000x128 .f32) (harg1 : arg1.IsWhole) (arg2 : Memref sig .tc .vmem S1x1x16000 .i32) (harg2 : arg2.IsWhole)
    (arg3 : Memref sig .tc .vmem S128x112 .f32) (harg3 : arg3.IsWhole) (arg4 : Memref sig .tc .vmem S1x112 .f32) (harg4 : arg4.IsWhole)
    (arg5 : Memref sig .tc .vmem S32x16 .f32) (harg5 : arg5.IsWhole) (arg6 : Memref sig .tc .vmem S16000x128 .f32) (harg6 : arg6.IsWhole)
    (x0 : Vec F S16000x128 .f32) (x1 : Vec F S1x1x16000 .i32) (x2 : Vec F S128x112 .f32) (x3 : Vec F S1x112 .f32) (x4 : Vec F S32x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The pipeline's proof data -/

/-- Block `t` of `x` as the fetch reads it — its rows inside the array — filled out past the array's end with words
    of the proof's choosing, which nothing the claim states depends on. -/
def xfill (c : Dev nD) (t : Fin cfg0.N) : Vec F S16000x128 .f32 :=
  (cfg0.win 0).fill (cfg0.grid.coords t) (fun _ => Classical.choice (Elt.nonempty F EltTy.f32)) (iblk m c 0 t)

/-- The proof data of the pipeline on core `c`: the arrays as the region finds them; after the body at point `t` each
    input's buffer at its block (the clipped one filled out as `xfill`) and the result's at `out5` of those; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => out5 (xfill m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (xfill m c t) (iblk m c 1 t) (iblk m c 2 t) (iblk m c 3 t) (iblk m c 4 t) := by dsimp only [dats]

/-- The clipped input is fetched at every point: its buffer holds the block on the rows the fetch fills and
    whatever was there (`d`) on the others. -/
theorem before0_0 (c : Dev nD) (t : Fin cfg0.N) (d) :
    (dats m 0 c).before 0 t d = (cfg0.win 0).fill (cfg0.grid.coords t) d (iblk m c 0 t) := by
  unfold Dat.before; rw [if_pos (fetch0_0 t)]
  unfold Dat.fetched Dat.blockOf iblk; rw [A_eq]
/-- The four whole inputs hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer is written back at every point: the body finds it at contents nothing names. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-- On the rows the transfers move, the clipped input's buffer holds its block whatever filled it out. -/
theorem cut_xfill (c : Dev nD) (t : Fin cfg0.N) :
    (cfg0.win 0).cut (cfg0.grid.coords t) (xfill m c t) = iblk m c 0 t := (cfg0.win 0).cut_fill _ _ _

/-! ## The body at a point, the result window forgotten

For the frame alone nothing is stated of what the body leaves in the result's buffer: the window is handed to the
body at any contents and taken back at any contents. -/

/-- Which windows the frame's proof data forgets: the result's. -/
abbrev fgt5 : Fin 6 → Bool := fun | 0 => false | 1 => false | 2 => false | 3 => false | 4 => false | 5 => true | ⟨_ + 6, h⟩ => absurd h (Nat.not_lt.2 (Nat.le_add_left _ _))

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, cut_xfill]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel c Set.univ (grid0.coords t) _ _ _ _ _ _ _ _ _ _ _ _
    ((cfg0.win 0).fill (cfg0.grid.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists _; iexact H5

/-- The pipeline's body obligation with the result window forgotten, at every point. -/
theorem body_obligationF (c : Dev nD) :
    BodyObligationLoose (dats (F := F) m 0 c) (defs₀ (F := F)) Variants.none () Set.univ fgt5 := fun t => by
  rw [bigSep_W0, bigSep_W0]
  exact sound_bodyF m c t

/-! ## The frame, the result window forgotten -/

set_option backward.isDefEq.respectTransparency.types false in
/-- Every weakly fair execution of @main terminates, faulting nowhere, and ends with every input array of the
    pipeline at its entry contents and every other unscoped buffer as the region found it; of the result array
    only that it holds something. -/
theorem run_forget : θ_run defs (onTc (τ := τ) (main (F := F))) (s₀ m ρ)
    (RDat.FramePost cfg0 (fun c => (dats m 0 c).toRForget fgt5) (V m)) :=
  Pipeline.RDat.θ_run_frame cfgs (0 : Fin 1) launch0 defs₀ Variants.none (fun c => (dats m 0 c).toRForget fgt5) m ρ main
    (hbody := fun c => (body_obligationF m c).toRForget) (hshare := fun c => (dats m 0 c).share_full fun _ => rfl)
    (howed := fun _ _ => rfl) (V := V m) (hmain := hmain m Variants.none) (hA := A_eq m) (hΦ := fun _ _ => rfl)

/-- The frame claim's post: the five argument arrays end as they were launched — the two the pipeline stages
    because an input window's array is never written, the three it does not because nothing touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (Eq.mp (congrFun (RDat.ArrAt_in ((dats m 0 c).toRForget fgt5) 0 rfl cfg0.N) _) ((h c).1 0)).trans ((A_eq m c 0).trans (V_main_arg0 m c)),
      ((h c).2 main_arg1 (Pipeline.mem_restRefs_of main_arg1 (by decide) (by decide))).trans (V_main_arg1 m c),
      (Eq.mp (congrFun (RDat.ArrAt_in ((dats m 0 c).toRForget fgt5) 2 rfl cfg0.N) _) ((h c).1 2)).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_forget m ρ)

end Cert.KernelIdeal.Body

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Payload.lean ====
/-
  The body's two stored values read at an entry, at the ideal values.

  The first store's value at row q, column j < 112 of the block is the row of the x-block against the column of
  W — the matrix product into a zero accumulator is the plain sum over the 128 contraction positions — plus the
  bias row's entry j (the bias is cast [1,112] → [112] → [1,112], which is the identity, then repeated down the rows).

  The second store's value at row q, column c < 16 is the product of the transposed one-hot matrix with the padded
  table: ∑ over the 32 table rows k of hot(k, id q) · table[k, c], where hot(k, v) is 1 when the row number k is
  the id v and 0 otherwise (the comparison of an iota with the ids, widened and converted). Exactly one term
  survives when the id is below 32: the sum is the table's row at the id.
-/
import proofs.«139606_g12386685681749_retrytranche1_195_15_alg».proof.Proof.Gen.KernelIdeal.Skeleton
import proofs.«139606_g12386685681749_retrytranche1_195_15_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The linear value at row `q`, column `j`. -/
theorem pay1_apply (v0 : Vec Ideal S16000x128 .f32) (v1 : Vec Ideal S128x112 .f32) (v3 : Vec Ideal S1x112 .f32)
    (q : Fin 16000) (j : Fin 112) :
    k0_pay1 (F := Ideal) v0 v1 v3 (ix2 q j)
      = (∑ k : Fin 128, v0 (ix2 q k) * v1 (ix2 k j)) + v3 (ix2 (0 : Fin 1) j) := by
  unfold k0_pay1
  show FloatOps.matmul dot_S16000x128_S128x112_S16000x112_1_0_0_1_n_n none v0 v1 (constant (F := Ideal) S16000x112 .f32 0x00000000#32) (ix2 q j)
      + broadcastTo S16000x112 (shapeCast S1x112 (shapeCast S112 v3 shapeCasts_S1x112_S112) shapeCasts_S112_S1x112)
          broadcasts_S1x112_S16000x112 (ix2 q j) = _
  rw [shapeCast_shapeCast, broadcastTo_1b_ab_apply]
  refine congrArg (· + v3 (ix2 (0 : Fin 1) j)) ?_
  exact Cert.GraphConv.matmul_zero_sum _ none rfl rfl (fun _ _ => rfl) (fun _ _ => rfl) (fun _ _ => rfl) (fun _ _ => rfl)
    v0 v1 (ix2 q j)

/-- One entry of the one-hot matrix: the comparison of row number `k` with the id `v`, widened to a word and
    converted to a float. -/
def hot (k : Fin 32) (v : BitVec 32) : EReal :=
  FloatOps.sitofp (F := Ideal) .f32 ((IntOp.cmpi .eq (BitVec.ofNat 32 k.val) v).setWidth 32)

/-- It is 1 where the row number is the id and 0 elsewhere. -/
theorem hot_eq (k : Fin 32) (v : BitVec 32) : hot k v = if BitVec.ofNat 32 k.val = v then (1 : EReal) else 0 := by
  unfold hot IntOp.cmpi
  by_cases h : BitVec.ofNat 32 k.val = v
  · rw [if_pos h]
    have e : (BitVec.ofNat 32 k.val == v) = true := by rw [h]; exact beq_self_eq_true v
    simp only [e]
    show (((((BitVec.ofBool true).setWidth 32 : BitVec 32).toInt : ℝ)) : EReal) = 1
    rw [show ((BitVec.ofBool true).setWidth 32 : BitVec 32).toInt = 1 from by decide]
    simp
  · rw [if_neg h]
    have e : (BitVec.ofNat 32 k.val == v) = false := by
      rcases hb : (BitVec.ofNat 32 k.val == v) with _ | _
      · rfl
      · exact absurd (eq_of_beq hb) h
    simp only [e]
    show (((((BitVec.ofBool false).setWidth 32 : BitVec 32).toInt : ℝ)) : EReal) = 0
    rw [show ((BitVec.ofBool false).setWidth 32 : BitVec 32).toInt = 0 from by decide]
    simp

/-- A one-hot row against a column picks the column's entry at the id, when the id is a row number. -/
theorem hot_sum (v : BitVec 32) (hv : v.toNat < 32) (f : Fin 32 → EReal) :
    ∑ k : Fin 32, hot k v * f k = f ⟨v.toNat, hv⟩ := by
  rw [Finset.sum_eq_single (⟨v.toNat, hv⟩ : Fin 32)]
  · rw [hot_eq, if_pos (show BitVec.ofNat 32 v.toNat = v from BitVec.eq_of_toNat_eq (by rw [BitVec.toNat_ofNat]; exact Nat.mod_eq_of_lt v.isLt)), one_mul]
  · intro k _ hk
    rw [hot_eq, if_neg, zero_mul]
    intro h
    apply hk
    apply Fin.ext
    show k.val = v.toNat
    rw [← h, BitVec.toNat_ofNat]
    have := k.isLt
    omega
  · intro h; exact absurd (Finset.mem_univ _) h

/-- The table value at row `q`, column `c`: the one-hot row of `q`'s id against column `c` of the padded table. -/
theorem pay2_apply (v9 : Vec Ideal S1x1x16000 .i32) (v16 : Vec Ideal S32x16 .f32) (q : Fin 16000) (c : Fin 16) :
    k0_pay2 (F := Ideal) v9 v16 (ix2 q c)
      = ∑ k : Fin 32, hot k (v9 (ix3 (0 : Fin 1) (0 : Fin 1) q)) * v16 (ix2 k c) := by
  unfold k0_pay2
  show FloatOps.matmul dot_S32x16000_S32x16_S16000x16_0_0_1_1_n_n none
      (sitofp (F := Ideal) .f32 (extui 32 (cmpi .eq (iota .tc S32x16000 32 [0] iota_S32x16000_d0_w32)
        (broadcastTo S32x16000 (shapeCast S1x16000 v9 shapeCasts_S1x1x16000_S1x16000) broadcasts_S1x16000_S32x16000)) natLt_1_32))
      (shapeCast S32x16 v16 shapeCasts_S32x16_S32x16) (constant (F := Ideal) S16000x16 .f32 0x00000000#32) (ix2 q c) = _
  rw [shapeCast_self, Ideal.matmul_constant_zero_apply,
    ← Equiv.sum_comp (contrEquiv1 dot_S32x16000_S32x16_S16000x16_0_0_1_1_n_n 32 rfl rfl).symm]
  refine Finset.sum_congr rfl fun k _ => ?_
  have hk := contrEquiv1_symm_val dot_S32x16000_S32x16_S16000x16_0_0_1_1_n_n 32 rfl rfl k
  have el : dot_S32x16000_S32x16_S16000x16_0_0_1_1_n_n.lhsIdx (ix2 q c)
      ((contrEquiv1 dot_S32x16000_S32x16_S16000x16_0_0_1_1_n_n 32 rfl rfl).symm k) = ix2 k q := by
    funext a; apply Fin.ext
    match a with
    | ⟨0, _⟩ => exact (DotDims.lhsIdx_val_of_single _ (cl := (0 : Fin 2)) rfl _ _).trans hk
    | ⟨1, _⟩ => rfl
  have er : dot_S32x16000_S32x16_S16000x16_0_0_1_1_n_n.rhsIdx (ix2 q c)
      ((contrEquiv1 dot_S32x16000_S32x16_S16000x16_0_0_1_1_n_n 32 rfl rfl).symm k) = ix2 k c := by
    funext a; apply Fin.ext
    match a with
    | ⟨0, _⟩ => exact (DotDims.rhsIdx_val_of_single _ (cr := (0 : Fin 2)) rfl _ _).trans hk
    | ⟨1, _⟩ => rfl
  rw [el, er]
  refine congrArg (· * v16 (ix2 k c)) ?_
  show FloatOps.sitofp (F := Ideal) .f32 ((IntOp.cmpi .eq (iota .tc S32x16000 32 [0] iota_S32x16000_d0_w32 (ix2 k q))
      (broadcastTo S32x16000 (shapeCast S1x16000 v9 shapeCasts_S1x1x16000_S1x16000) broadcasts_S1x16000_S32x16000 (ix2 k q))).setWidth 32) = hot k _
  rw [iota_single_apply, broadcastTo_1b_ab_apply, shapeCast_dropUnit_apply]
  unfold hot
  refine congrArg (fun v => FloatOps.sitofp (F := Ideal) .f32 ((IntOp.cmpi .eq (BitVec.ofNat 32 k.val) v).setWidth 32)) ?_
  refine congrArg v9 (funext fun a => ?_)
  match a with
  | ⟨0, _⟩ => rfl
  | ⟨1, _⟩ => rfl
  | ⟨2, _⟩ => rfl

end Cert.KernelIdeal.Payload

end
-- ==== Proof.OutAt.lean ====
/-
  The result block read at an entry, and the pipeline's run with the result named.

  The two stores of the body tile the 16000 × 128 block by columns, so an entry in columns 0‥111 is the first
  store's value there and an entry in columns 112‥127 the second's. An entry of row q depends on row q of the
  x-block only. That is what makes the clipped last block harmless: the rows of the staging buffer past the
  array's end hold words nothing names, they only reach rows of the result block that the write-back drops, and on
  the rows inside the array the result block is the same whatever filled the others.
-/
import proofs.«139606_g12386685681749_retrytranche1_195_15_alg».proof.Proof.BodyIdeal
import proofs.«139606_g12386685681749_retrytranche1_195_15_alg».proof.Proof.Payload

set_option maxRecDepth 16384

noncomputable section

namespace Cert.KernelIdeal.Val

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The result block at an entry -/

/-- An entry of the block in columns 0‥111 is outside the second store's rectangle; -/
theorem lin_not_mem (q : Fin 16000) (j : Fin 112) :
    (ix2 q (⟨j.val, by have := j.isLt; omega⟩ : Fin 128) : S16000x128.Idx) ∉ rEmb.set := fun h => by
  rw [Rect.mem_set_unit] at h
  have h1 : (112 : Nat) ≤ j.val := (h 1).1
  have := j.isLt; omega

/-- it is the first store's entry at the same row and column; -/
theorem lin_emb (q : Fin 16000) (j : Fin 112) :
    rLin.emb (ix2 q j) = (ix2 q (⟨j.val, by have := j.isLt; omega⟩ : Fin 128) : S16000x128.Idx) := by
  funext a; apply Fin.ext
  match a with
  | ⟨0, _⟩ => rw [Rect.emb_apply]; show 0 + 1 * q.val = q.val; omega
  | ⟨1, _⟩ => rw [Rect.emb_apply]; show 0 + 1 * j.val = j.val; omega

/-- and an entry in columns 112‥127 is the second store's entry 112 columns to the left. -/
theorem emb_emb (q : Fin 16000) (c : Fin 16) :
    rEmb.emb (ix2 q c) = (ix2 q (⟨112 + c.val, by have := c.isLt; omega⟩ : Fin 128) : S16000x128.Idx) := by
  funext a; apply Fin.ext
  match a with
  | ⟨0, _⟩ => rw [Rect.emb_apply]; show 0 + 1 * q.val = q.val; omega
  | ⟨1, _⟩ => rw [Rect.emb_apply]; show 112 + 1 * c.val = 112 + c.val; omega

theorem canon2_lin (P2 : Vec Ideal S16000x16 .f32) (P1 : Vec Ideal S16000x112 .f32) (q : Fin 16000) (j : Fin 112) :
    View.canon (Val := Elt Ideal) [⟨rEmb, P2⟩, ⟨rLin, P1⟩] (ix2 q (⟨j.val, by have := j.isLt; omega⟩ : Fin 128)) = P1 (ix2 q j) := by
  refine (View.canon_cons_of_not_mem (Val := Elt Ideal) (⟨rEmb, P2⟩ : View.Piece (Elt Ideal) S16000x128 .f32) [⟨rLin, P1⟩] (lin_not_mem q j)).trans ?_
  rw [← lin_emb q j]
  exact View.canon_cons_emb (Val := Elt Ideal) rLin P1 [] (ix2 q j)

theorem canon2_emb (P2 : Vec Ideal S16000x16 .f32) (P1 : Vec Ideal S16000x112 .f32) (q : Fin 16000) (c : Fin 16) :
    View.canon (Val := Elt Ideal) [⟨rEmb, P2⟩, ⟨rLin, P1⟩] (ix2 q (⟨112 + c.val, by have := c.isLt; omega⟩ : Fin 128)) = P2 (ix2 q c) := by
  rw [← emb_emb q c]
  exact View.canon_cons_emb (Val := Elt Ideal) rEmb P2 [⟨rLin, P1⟩] (ix2 q c)

/-- Columns 0‥111: the row of the x-block against the column of W, plus the bias. -/
theorem out5_lin (x0 : Vec Ideal S16000x128 .f32) (x1 : Vec Ideal S1x1x16000 .i32) (x2 : Vec Ideal S128x112 .f32)
    (x3 : Vec Ideal S1x112 .f32) (x4 : Vec Ideal S32x16 .f32) (q : Fin 16000) (j : Fin 112) :
    out5 (F := Ideal) x0 x1 x2 x3 x4 (ix2 q (⟨j.val, by have := j.isLt; omega⟩ : Fin 128))
      = (∑ k : Fin 128, x0 (ix2 q k) * x2 (ix2 k j)) + x3 (ix2 (0 : Fin 1) j) := by
  unfold out5
  rw [canon2_lin]
  simp only [View.ld_unit_zero (S := S16000x128) hz2, View.ld_unit_zero (S := S128x112) hz2, View.ld_unit_zero (S := S1x112) hz2]
  exact pay1_apply x0 x2 x3 q j

/-- Columns 112‥127: the one-hot row of the id against the column of the padded table. -/
theorem out5_emb (x0 : Vec Ideal S16000x128 .f32) (x1 : Vec Ideal S1x1x16000 .i32) (x2 : Vec Ideal S128x112 .f32)
    (x3 : Vec Ideal S1x112 .f32) (x4 : Vec Ideal S32x16 .f32) (q : Fin 16000) (c : Fin 16) :
    out5 (F := Ideal) x0 x1 x2 x3 x4 (ix2 q (⟨112 + c.val, by have := c.isLt; omega⟩ : Fin 128))
      = ∑ k : Fin 32, hot k (x1 (ix3 (0 : Fin 1) (0 : Fin 1) q)) * x4 (ix2 k c) := by
  unfold out5
  rw [canon2_emb]
  simp only [View.ld_unit_zero (S := S1x1x16000) hz3, View.ld_unit_zero (S := S32x16) hz2]
  exact pay2_apply x1 x4 q c

/-- Row `q` of the result block depends on row `q` of the x-block only. -/
theorem out5_row_congr (x0 x0' : Vec Ideal S16000x128 .f32) (x1 : Vec Ideal S1x1x16000 .i32) (x2 : Vec Ideal S128x112 .f32)
    (x3 : Vec Ideal S1x112 .f32) (x4 : Vec Ideal S32x16 .f32) (q : Fin 16000)
    (h : ∀ k : Fin 128, x0 (ix2 q k) = x0' (ix2 q k)) (j : Fin 128) :
    out5 (F := Ideal) x0 x1 x2 x3 x4 (ix2 q j) = out5 (F := Ideal) x0' x1 x2 x3 x4 (ix2 q j) := by
  by_cases hj : j.val < 112
  · rw [show j = (⟨(⟨j.val, hj⟩ : Fin 112).val, by omega⟩ : Fin 128) from Fin.ext rfl, out5_lin, out5_lin]
    simp only [h]
  · have hlt := j.isLt
    rw [show j = (⟨112 + (⟨j.val - 112, by omega⟩ : Fin 16).val, by show 112 + (j.val - 112) < 128; omega⟩ : Fin 128) from
      Fin.ext (by show j.val = 112 + (j.val - 112); omega), out5_emb, out5_emb]

/-! ## The body at a point, the result named -/

/-- The two clipped windows are cut alike, and only on the row axis. -/
theorem xsize_facts : ∀ t : Fin cfg0.N,
    win0_5.xsize (grid0.coords t) (0 : Fin 2) = win0_0.xsize (grid0.coords t) (0 : Fin 2)
    ∧ win0_0.xsize (grid0.coords t) (1 : Fin 2) = 128 ∧ win0_5.xsize (grid0.coords t) (1 : Fin 2) = 128 :=
  (by decide +kernel : ∀ t : Fin grid0.N, _)

/-- On a row the fetch fills, the x-buffer holds the block's row whatever filled the other rows. -/
theorem fill_row (c : Dev nD) (t : Fin cfg0.N) (d d' : S16000x128.Idx → Elt Ideal .f32) (q : Fin 16000)
    (hq : q.val < win0_0.xsize (grid0.coords t) (0 : Fin 2)) (k : Fin 128) :
    (cfg0.win 0).fill (cfg0.grid.coords t) d (iblk m c 0 t) (ix2 q k)
      = (cfg0.win 0).fill (cfg0.grid.coords t) d' (iblk m c 0 t) (ix2 q k) := by
  have hm : (cfg0.win 0).moved (cfg0.grid.coords t) (ix2 q k) = true :=
    ((cfg0.win 0).moved_iff _ _).mpr fun a => by
      match a with
      | ⟨0, _⟩ => exact hq
      | ⟨1, _⟩ =>
        show k.val < win0_0.xsize (grid0.coords t) (1 : Fin 2)
        rw [(xsize_facts t).2.1]; exact k.isLt
  unfold Window.fill; rw [dif_pos hm, dif_pos hm]

/-- On the rows the write-back moves, the result block does not depend on what filled out the x-buffer. -/
theorem cut_out5 (c : Dev nD) (t : Fin cfg0.N) (d0 : S16000x128.Idx → Elt Ideal .f32) :
    (cfg0.win 5).cut (cfg0.grid.coords t)
        (out5 ((cfg0.win 0).fill (cfg0.grid.coords t) d0 (iblk m c 0 t)) (iblk m c 1 t) (iblk m c 2 t) (iblk m c 3 t) (iblk m c 4 t))
      = (cfg0.win 5).cut (cfg0.grid.coords t)
        (out5 (xfill m c t) (iblk m c 1 t) (iblk m c 2 t) (iblk m c 3 t) (iblk m c 4 t)) := by
  funext y
  have h0 : (y 0).val < win0_5.xsize (grid0.coords t) (0 : Fin 2) := (y 0).isLt
  have h1 : (y 1).val < win0_5.xsize (grid0.coords t) (1 : Fin 2) := (y 1).isLt
  obtain ⟨e0, e1, e2⟩ := xsize_facts t
  have hle : win0_0.xsize (grid0.coords t) (0 : Fin 2) ≤ 16000 := win0_0.xsize_le _ _
  rw [e2] at h1; rw [e0] at h0
  have hx : (cfg0.win 5).xinj (cfg0.grid.coords t) y
      = ix2 (⟨(y 0).val, by omega⟩ : Fin 16000) (⟨(y 1).val, h1⟩ : Fin 128) := by
    funext a; apply Fin.ext
    match a with
    | ⟨0, _⟩ => rfl
    | ⟨1, _⟩ => rfl
  show out5 _ _ _ _ _ ((cfg0.win 5).xinj (cfg0.grid.coords t) y) = out5 _ _ _ _ _ ((cfg0.win 5).xinj (cfg0.grid.coords t) y)
  rw [hx]
  exact out5_row_congr _ _ _ _ _ _ _ (fun k => fill_row m c t _ _ _ h0 k) _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((cfg0.win 5).fill (cfg0.grid.coords t) d ((cfg0.win 5).cut (cfg0.grid.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, cut_xfill]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply (sound_kernel c Set.univ (grid0.coords t) _ _ _ _ _ _ _ _ _ _ _ _
    ((cfg0.win 0).fill (cfg0.grid.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (out5 ((cfg0.win 0).fill (cfg0.grid.coords t) d0 (iblk m c 0 t)) (iblk m c 1 t) (iblk m c 2 t) (iblk m c 3 t) (iblk m c 4 t))
  rw [(cfg0.win 5).fill_congr_cut _ (cut_out5 m c t d0)]
  iexact H5

/-- The pipeline's body obligation, every window named, at every point. -/
theorem body_obligation (c : Dev nD) :
    BodyObligationLoose (dats (F := Ideal) m 0 c) (defs₀ (F := Ideal)) Variants.none () Set.univ := fun t => by
  rw [bigSep_W0, bigSep_W0]
  exact sound_body m c t

set_option backward.isDefEq.respectTransparency.types false in
/-- Every weakly fair execution of @main terminates, faulting nowhere, with every array of the pipeline at what
    the proof data computes — the result array its entry contents overwritten, block by block, by the rows inside
    the array of what the body left — and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Val

end
-- ==== Proof.LibScatterSet.lean ====
/-
  A scatter whose body returns the update (`x.at[…].set(v)`), read at an index.

  The scatter is a left fold, over the update indices in row-major order, of point updates: the
  step for update index `n` replaces the result's element at the operand index `p n` by the update's
  element `v n`, and does nothing when `p n` is outside the operand. Read at one operand index `i'`:

  * if no update index lands on `i'`, the fold leaves the operand's element there (`foldl_apply_of_miss`);
  * if some update index lands on `i'`, and all those that do carry the same element, the fold leaves
    that element there (`foldl_apply_of_hit`) — in particular when exactly one lands on `i'`.

  The step is taken abstractly (any function with the three properties `hs_eq`, `hs_ne`, `hn`), so the
  lemmas do not depend on how a particular definition spells its case split. `scatter_set_apply_of_miss`
  and `scatter_set_apply_of_hit` are the two facts for `Host.scatter` with the body `fun _ b => b`.
  The last section reads the landing index `resultIdx?` when the start indices are all zero.
-/
import Idealize.ShloMosaic.PureOps.ShapeOps

namespace Cert.ScatterSet

open Idealize.ShloMosaic

/-! ## A left fold of point updates -/

section Fold

variable {ι I α : Type} (p : ι → Option I) (v : ι → α) (step : (I → α) → ι → I → α)
  (hs_eq : ∀ r n i, p n = some i → step r n i = v n)
  (hs_ne : ∀ r n i, p n = some i → ∀ i', i' ≠ i → step r n i' = r i')
  (hn : ∀ r n, p n = none → step r n = r)

include hs_ne hn in
/-- A step whose update does not land on `i'` leaves the element at `i'`. -/
theorem step_apply_of_ne (r : I → α) (n : ι) (i' : I) (h : p n ≠ some i') : step r n i' = r i' := by
  cases hp : p n with
  | none => rw [hn r n hp]
  | some i => exact hs_ne r n i hp i' (fun e => h (by rw [hp, e]))

include hs_ne hn in
/-- If no update of the list lands on `i'`, the fold leaves the element at `i'`. -/
theorem foldl_apply_of_miss (l : List ι) (x : I → α) (i' : I) (h : ∀ n ∈ l, p n ≠ some i') :
    l.foldl step x i' = x i' := by
  induction l generalizing x with
  | nil => rfl
  | cons a l ih =>
    rw [List.foldl_cons, ih _ (fun n hn' => h n (List.mem_cons_of_mem _ hn'))]
    exact step_apply_of_ne p step hs_ne hn x a i' (h a List.mem_cons_self)

include hs_eq hs_ne hn in
/-- The invariant behind `foldl_apply_of_hit`: if every update of the list that lands on `i'` carries `w`, and
    either the start already holds `w` at `i'` or some update of the list lands there, the fold holds `w` at `i'`. -/
theorem foldl_apply_of_hit_aux (l : List ι) (x : I → α) (i' : I) (w : α) (hv : ∀ n ∈ l, p n = some i' → v n = w)
    (h : x i' = w ∨ ∃ n ∈ l, p n = some i') : l.foldl step x i' = w := by
  induction l generalizing x with
  | nil =>
    rcases h with h | ⟨n, hn', _⟩
    · exact h
    · exact absurd hn' List.not_mem_nil
  | cons a l ih =>
    rw [List.foldl_cons]
    refine ih _ (fun n hn' => hv n (List.mem_cons_of_mem _ hn')) ?_
    by_cases hpa : p a = some i'
    · left
      rw [hs_eq x a i' hpa]
      exact hv a List.mem_cons_self hpa
    · rw [step_apply_of_ne p step hs_ne hn x a i' hpa]
      rcases h with h | ⟨n, hn', hpn⟩
      · left; exact h
      · right
        rcases List.mem_cons.1 hn' with e | hn''
        · subst e; exact absurd hpn hpa
        · exact ⟨n, hn'', hpn⟩

include hs_eq hs_ne hn in
/-- If update `n0` of the list lands on `i'`, and every update of the list that lands there carries the same
    element as `n0`, the fold holds that element at `i'`. -/
theorem foldl_apply_of_hit (l : List ι) (x : I → α) (i' : I) (n0 : ι) (h0 : n0 ∈ l) (hp0 : p n0 = some i')
    (hv : ∀ n ∈ l, p n = some i' → v n = v n0) : l.foldl step x i' = v n0 :=
  foldl_apply_of_hit_aux p v step hs_eq hs_ne hn l x i' (v n0) hv (Or.inr ⟨n0, h0, hp0⟩)

end Fold

/-! ## The scatter that sets -/

section Scatter

variable {s si u : Shape} {α : Type} {w : Nat}

/-- A setting scatter leaves the operand's element where no update lands. -/
theorem scatter_set_apply_of_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  refine foldl_apply_of_miss (fun n => d.resultIdx? (u.rowMajor.symm n) idx) _ ?_ ?_ _ x i' (fun n _ => h _)
  · intro r n i hp i'' hne
    simp only [hp]
    exact if_neg hne
  · intro r n hp
    simp only [hp]

/-- A setting scatter holds the update's element `upd j0` at the index `j0` lands on, when every update
    index that lands there carries that same element (in particular when `j0` is the only one). -/
theorem scatter_set_apply_of_hit (d : ScatterDims s si u) (x : s.Idx → α) (idx : IVec si w) (upd : u.Idx → α) (i' : s.Idx)
    (j0 : u.Idx) (h0 : d.resultIdx? j0 idx = some i') (hv : ∀ j : u.Idx, d.resultIdx? j idx = some i' → upd j = upd j0) :
    Host.scatter d (fun _ b => b) x idx upd i' = upd j0 := by
  unfold Host.scatter
  have e0 : u.rowMajor.symm (u.rowMajor j0) = j0 := Equiv.symm_apply_apply _ _
  refine (foldl_apply_of_hit (fun n => d.resultIdx? (u.rowMajor.symm n) idx) (fun n => upd (u.rowMajor.symm n)) _ ?_ ?_ ?_ _ x i'
    (u.rowMajor j0) (List.mem_finRange _) (by rw [e0]; exact h0) (fun n _ hp => by rw [e0]; exact hv _ hp)).trans (by rw [e0])
  · intro r n i hp
    simp only [hp]
    exact if_pos trivial
  · intro r n i hp i'' hne
    simp only [hp]
    exact if_neg hne
  · intro r n hp
    simp only [hp]

end Scatter

/-! ## Where an update lands -/

section Landing

variable {s si u : Shape} {w : Nat} (d : ScatterDims s si u)

/-- With every start index zero, every window starts at zero. -/
theorem start_eq_zero (j : u.Idx) (idx : IVec si w) (h : ∀ k, (idx k).toInt = 0) (a : Fin s.rank) : d.start j idx a = 0 := by
  unfold ScatterDims.start
  split
  · exact h _
  · rfl

/-- The landing index, when start plus window coordinate is the coordinate of `i` on every axis. -/
theorem resultIdx?_eq_some (j : u.Idx) (idx : IVec si w) (i : s.Idx)
    (h : ∀ a, d.start j idx a + d.window j a = ((i a).val : Int)) : d.resultIdx? j idx = some i := by
  unfold ScatterDims.resultIdx?
  have hh : ∀ a, 0 ≤ d.start j idx a + d.window j a ∧ d.start j idx a + d.window j a < s.size a := fun a => by
    rw [h a]; exact ⟨Int.natCast_nonneg _, by exact_mod_cast (i a).isLt⟩
  rw [dif_pos hh]
  congr 1
  funext a
  apply Fin.ext
  show (d.start j idx a + d.window j a).toNat = (i a).val
  rw [h a]; exact Int.toNat_natCast _

/-- Conversely the coordinates of the landing index are start plus window coordinate. -/
theorem val_of_resultIdx?_eq_some (j : u.Idx) (idx : IVec si w) (i : s.Idx) (h : d.resultIdx? j idx = some i) (a : Fin s.rank) :
    ((i a).val : Int) = d.start j idx a + d.window j a := by
  unfold ScatterDims.resultIdx? at h
  split at h
  · rename_i hh
    have e := Option.some.inj h
    subst e
    show (((d.start j idx a + d.window j a).toNat : Nat) : Int) = _
    exact Int.toNat_of_nonneg (hh a).1
  · exact absurd h (by simp)

end Landing

end Cert.ScatterSet
-- ==== Proof.HostSide.lean ====
/-
  The arrays the kernel's region finds, as functions of the argument arrays.

  Before its one region the kernel's entry function prepares three arrays on the host:

  * the bias `b : f32[112]` viewed as a row, `[1, 112]`: entry `(0, j)` is `b[j]`;
  * the row ids padded with zeros to length 112000 and viewed as `[7, 1, 16000]`: entry `(t, 0, q)` is
    `ids[16000·t + q]` wherever that position is below 100000;
  * the table `pe : f32[20, 16]` padded with zero rows to `[32, 16]`: entry `(k, c)` is `pe[k, c]` for `k < 20`
    and `0` for `20 ≤ k < 32`.

  Both paddings are a scatter that SETS one whole window — the array to be padded — into an array of zeros at
  the start index zero. With every start index zero an update index `j` lands on the operand index with the same
  coordinates (`land1`, `land2`), distinct update indices land on distinct operand indices, and an operand
  index beyond the window's extent is met by no update; the two facts of the setting scatter read at an index
  then give the padded arrays.
-/
import proofs.«139606_g12386685681749_retrytranche1_195_15_alg».proof.Proof.Gen.KernelIdeal.Frame
import proofs.«139606_g12386685681749_retrytranche1_195_15_alg».proof.Proof.LibScatterSet
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.HostSide

open Idealize.ShloMosaic Idealize.ShloMosaic.TcCoe Idealize.SL.Sem Cert.KernelIdeal Cert.KernelIdeal.Gen ValueIdx
open Cert.ScatterSet

/-! ## The start indices -/

/-- The one start index of either scatter is the word zero, read signed: zero. -/
theorem idx0_toInt (k : S1.Idx) : ((broadcastInDim S1 ![] bcast_S_S1 (constantI S_ 32 0#32) : IVec S1 32) k).toInt = 0 := by
  rw [broadcastInDim_scalar_apply]; rfl

/-! ## The ids, padded: a length-100000 window set into a length-112000 array -/

/-- The window coordinate on the operand's one axis is the update index's coordinate. -/
theorem window1 (j : S100000.Idx) (a : Fin 1) : scatter_S112000_S1_S100000_0_n_0_0.window j a = (j 0).val := by
  match a with
  | ⟨0, _⟩ => rfl

/-- With zero starts, update index `j` lands on the operand index with the same coordinate. -/
theorem land1 (idx : IVec S1 32) (hidx : ∀ k, (idx k).toInt = 0) (j : S100000.Idx) :
    scatter_S112000_S1_S100000_0_n_0_0.resultIdx? j idx
      = some (ix1 (⟨(j 0).val, by have h : (j 0).val < 100000 := (j 0).isLt; omega⟩ : Fin 112000)) := by
  refine resultIdx?_eq_some _ j idx _ (fun (a : Fin 1) => ?_)
  rw [start_eq_zero scatter_S112000_S1_S100000_0_n_0_0 j idx hidx a, zero_add, window1 j a]
  match a with
  | ⟨0, _⟩ => rfl

/-- An update index that lands on position `n` has coordinate `n`. -/
theorem coord_of_land1 (idx : IVec S1 32) (hidx : ∀ k, (idx k).toInt = 0) (j : S100000.Idx) (n : Fin 112000)
    (hj : scatter_S112000_S1_S100000_0_n_0_0.resultIdx? j idx = some (ix1 n)) : (j 0).val = n.val := by
  rw [land1 idx hidx] at hj
  exact congrArg Fin.val (congrFun (Option.some.inj hj) (0 : Fin 1))

/-- The padded array below the window's extent: the update's element at the same position. -/
theorem scatter1_apply_lt (x : S112000.Idx → BitVec 32) (idx : IVec S1 32) (hidx : ∀ k, (idx k).toInt = 0)
    (upd : S100000.Idx → BitVec 32) (n : Fin 112000) (h : n.val < 100000) :
    Host.scatter scatter_S112000_S1_S100000_0_n_0_0 (fun _ b => b) x idx upd (ix1 n) = upd (ix1 ⟨n.val, h⟩) := by
  refine scatter_set_apply_of_hit _ x idx upd (ix1 n) (ix1 ⟨n.val, h⟩) ?_ ?_
  · rw [land1 idx hidx]
  · intro j hj
    have h0 := coord_of_land1 idx hidx j n hj
    have hj0 : j = ix1 (⟨n.val, h⟩ : Fin 100000) := (eq_ix1 j).trans (congrArg ix1 (Fin.ext h0))
    rw [hj0]

/-- The padded array from the window's extent on: the operand's element. -/
theorem scatter1_apply_ge (x : S112000.Idx → BitVec 32) (idx : IVec S1 32) (hidx : ∀ k, (idx k).toInt = 0)
    (upd : S100000.Idx → BitVec 32) (n : Fin 112000) (h : ¬ n.val < 100000) :
    Host.scatter scatter_S112000_S1_S100000_0_n_0_0 (fun _ b => b) x idx upd (ix1 n) = x (ix1 n) := by
  refine scatter_set_apply_of_miss _ x idx upd (ix1 n) (fun j hj => ?_)
  have h0 := coord_of_land1 idx hidx j n hj
  have h1 : (j 0).val < 100000 := (j 0).isLt
  omega

/-! ## The table, padded: a 20×16 window set into a 32×16 array -/

theorem window2_0 (j : S20x16.Idx) : scatter_S32x16_S1_S20x16_01_n_0_0.window j (0 : Fin 2) = (j 0).val := rfl
theorem window2_1 (j : S20x16.Idx) : scatter_S32x16_S1_S20x16_01_n_0_0.window j (1 : Fin 2) = (j 1).val := rfl

/-- With zero starts, update index `j` lands on the operand index with the same two coordinates. -/
theorem land2 (idx : IVec S1 32) (hidx : ∀ k, (idx k).toInt = 0) (j : S20x16.Idx) :
    scatter_S32x16_S1_S20x16_01_n_0_0.resultIdx? j idx
      = some (ix2 (⟨(j 0).val, by have h := idx2_lt0 j; omega⟩ : Fin 32) (⟨(j 1).val, idx2_lt1 j⟩ : Fin 16)) := by
  refine resultIdx?_eq_some _ j idx _ (fun (a : Fin 2) => ?_)
  rw [start_eq_zero scatter_S32x16_S1_S20x16_01_n_0_0 j idx hidx a, zero_add]
  match a with
  | ⟨0, _⟩ => rfl
  | ⟨1, _⟩ => rfl

/-- An update index that lands on `(k, c)` has the coordinates `k` and `c`. -/
theorem coord_of_land2 (idx : IVec S1 32) (hidx : ∀ k, (idx k).toInt = 0) (j : S20x16.Idx) (k : Fin 32) (cc : Fin 16)
    (hj : scatter_S32x16_S1_S20x16_01_n_0_0.resultIdx? j idx = some (ix2 k cc)) : (j 0).val = k.val ∧ (j 1).val = cc.val := by
  rw [land2 idx hidx] at hj
  exact ⟨congrArg Fin.val (congrFun (Option.some.inj hj) (0 : Fin 2)), congrArg Fin.val (congrFun (Option.some.inj hj) (1 : Fin 2))⟩

/-- The padded table: the update's row below the window's extent, the operand's rows from there on. -/
theorem scatter2_apply {α : Type} (x : S32x16.Idx → α) (idx : IVec S1 32) (hidx : ∀ k, (idx k).toInt = 0)
    (upd : S20x16.Idx → α) (k : Fin 32) (cc : Fin 16) :
    Host.scatter scatter_S32x16_S1_S20x16_01_n_0_0 (fun _ b => b) x idx upd (ix2 k cc)
      = if h : k.val < 20 then upd (ix2 ⟨k.val, h⟩ cc) else x (ix2 k cc) := by
  by_cases h : k.val < 20
  · rw [dif_pos h]
    refine scatter_set_apply_of_hit _ x idx upd (ix2 k cc) (ix2 ⟨k.val, h⟩ cc) ?_ ?_
    · rw [land2 idx hidx]
    · intro j hj
      obtain ⟨h0, h1⟩ := coord_of_land2 idx hidx j k cc hj
      have hj0 : j = ix2 (⟨k.val, h⟩ : Fin 20) cc :=
        (eq_ix2 j).trans (congrArg₂ (ix2 (n0 := 20) (n1 := 16)) (Fin.ext h0) (Fin.ext h1))
      rw [hj0]
  · rw [dif_neg h]
    refine scatter_set_apply_of_miss _ x idx upd (ix2 k cc) (fun j hj => ?_)
    obtain ⟨h0, _⟩ := coord_of_land2 idx hidx j k cc hj
    have h1 := idx2_lt0 j
    omega

/-! ## The two reshapes read at an index -/

/-- The bias as a row: `(0, j)` reads `j`. -/
theorem cast4 {α : Type} (x : S112.Idx → α) (j : Fin 112) :
    shapeCast S1x112 x shapeCasts_S112_S1x112 (ix2 (0 : Fin 1) j) = x (ix1 j) :=
  shapeCast_a_1a_apply x _ _ _

/-- The padded ids as `[7, 1, 16000]`: `(t, 0, q)` reads position `16000·t + q`. -/
theorem cast3 {α : Type} (x : S112000.Idx → α) (t : Fin 7) (q : Fin 16000) :
    shapeCast S7x1x16000 x shapeCasts_S112000_S7x1x16000 (ix3 t (0 : Fin 1) q)
      = x (ix1 (⟨t.val * 16000 + q.val, by have := t.isLt; have := q.isLt; omega⟩ : Fin 112000)) := by
  refine shapeCast_apply x _ _ _ ?_
  rw [Shape.rowMajor_val_one, Shape.rowMajor_val_three]
  show t.val * 16000 + q.val = (t.val * 1 + 0) * 16000 + q.val
  omega

/-! ## The arrays as the region finds them -/

variable (m : (ℓ : Loc nD τ sig) → Buf (Elt Ideal) ℓ)

/-- The bias row is the reshape of the bias argument. -/
theorem e4 (c : Dev nD) : (V (F := Ideal) m c main_v4 : S1x112.Idx → EReal) =
    shapeCast S1x112 (m ((c : Thread nD τ).loc main_arg3) : S112.Idx → EReal) shapeCasts_S112_S1x112 := by
  dsimp only [Gen.V, Gen.hostOps0]
  after_results
  rfl

/-- The id blocks are the reshape of the ids set into zeros. -/
theorem e3 (c : Dev nD) : (V (F := Ideal) m c main_v3 : S7x1x16000.Idx → BitVec 32) =
    shapeCast S7x1x16000 (Host.scatter scatter_S112000_S1_S100000_0_n_0_0 (fun _ b => b)
      (broadcastInDim S112000 ![] bcast_S_S112000 (constantI S_ 32 0#32))
      (broadcastInDim S1 ![] bcast_S_S1 (constantI S_ 32 0#32))
      (m ((c : Thread nD τ).loc main_arg1) : S100000.Idx → BitVec 32)) shapeCasts_S112000_S7x1x16000 := by
  dsimp only [Gen.V, Gen.hostOps0]
  after_results
  rfl

/-- The padded table is the table set into zeros. -/
theorem e7 (c : Dev nD) : (V (F := Ideal) m c main_v7 : S32x16.Idx → EReal) =
    Host.scatter scatter_S32x16_S1_S20x16_01_n_0_0 (fun _ b => b)
      (broadcastInDim S32x16 ![] bcast_S_S32x16 (constant (F := Ideal) S_ .f32 0x00000000#32))
      (broadcastInDim S1 ![] bcast_S_S1 (constantI S_ 32 0#32))
      (m ((c : Thread nD τ).loc main_arg4) : S20x16.Idx → EReal) := by
  dsimp only [Gen.V, Gen.hostOps0]
  after_results

/-- The bias row at `(0, j)` is the bias at `j`. -/
theorem V_v4 (c : Dev nD) (j : Fin 112) :
    (V (F := Ideal) m c main_v4 : S1x112.Idx → EReal) (ix2 (0 : Fin 1) j)
      = (m ((c : Thread nD τ).loc main_arg3) : S112.Idx → EReal) (ix1 j) := by
  rw [e4 m c]
  exact cast4 _ j

/-- The id blocks at `(t, 0, q)`, for a position `16000·t + q` below 100000, hold the id at that position. -/
theorem V_v3 (c : Dev nD) (t : Fin 7) (q : Fin 16000) (h : t.val * 16000 + q.val < 100000) :
    (V (F := Ideal) m c main_v3 : S7x1x16000.Idx → BitVec 32) (ix3 t (0 : Fin 1) q)
      = (m ((c : Thread nD τ).loc main_arg1) : S100000.Idx → BitVec 32) (ix1 ⟨t.val * 16000 + q.val, h⟩) := by
  rw [e3 m c]
  refine (cast3 _ t q).trans ?_
  exact scatter1_apply_lt _ _ idx0_toInt _ _ h

/-- The id blocks at `(t, 0, q)`, for a position `16000·t + q` from 100000 on, hold the word zero. -/
theorem V_v3_pad (c : Dev nD) (t : Fin 7) (q : Fin 16000) (h : ¬ t.val * 16000 + q.val < 100000) :
    (V (F := Ideal) m c main_v3 : S7x1x16000.Idx → BitVec 32) (ix3 t (0 : Fin 1) q) = 0#32 := by
  rw [e3 m c]
  refine (cast3 _ t q).trans ?_
  refine (scatter1_apply_ge _ _ idx0_toInt _ _ h).trans ?_
  rw [broadcastInDim_scalar_apply]; rfl

/-- The padded table at `(k, c)`: the table's entry for `k < 20`, zero in the rows added. -/
theorem V_v7 (c : Dev nD) (k : Fin 32) (cc : Fin 16) :
    (V (F := Ideal) m c main_v7 : S32x16.Idx → EReal) (ix2 k cc)
      = if h : k.val < 20 then (m ((c : Thread nD τ).loc main_arg4) : S20x16.Idx → EReal) (ix2 ⟨k.val, h⟩ cc) else (0 : EReal) := by
  rw [e7 m c]
  refine (scatter2_apply _ _ idx0_toInt _ k cc).trans ?_
  by_cases h : k.val < 20
  · rw [dif_pos h, dif_pos h]
  · rw [dif_neg h, dif_neg h, broadcastInDim_scalar_apply]
    exact Ideal.ofBits_zero_f32

end Cert.HostSide

end
-- ==== Proof.Spec.lean ====
/-
  The function both programs compute, stated once over the argument arrays.

  For a row r < 100000 of the result f32[100000, 128]:
    * a column j < 112 holds  (∑ k < 128, x[r,k] · W[k,j]) + b[j]   — the linear layer;
    * a column 112 + c (c < 16) holds  pe[ids[r], c]                 — row ids[r] of the 20-row table.
  The table row is written `ids[r] mod 20` so that the function is total; both programs agree with it
  where 0 ≤ ids[r] < 20, which is the domain the claim is stated on.
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 128]⟩
abbrev SId : Shape := ⟨1, ![100000]⟩
abbrev SW : Shape := ⟨2, ![128, 112]⟩
abbrev SBias : Shape := ⟨1, ![112]⟩
abbrev SPe : Shape := ⟨2, ![20, 16]⟩

/-- The linear part at row `r`, column `j < 112`: the row of `x` against the column of `W`, plus the bias. -/
def lin (x : FVec Ideal SX .f32) (W : FVec Ideal SW .f32) (b : FVec Ideal SBias .f32) (r : Fin 100000) (j : Fin 112) : EReal :=
  (∑ k : Fin 128, x (ix2 r k) * W (ix2 k j)) + b (ix1 j)

/-- The table part at row `r`, column `c < 16`: entry `c` of the table row the id of `r` names. -/
def emb (ids : IVec SId 32) (pe : FVec Ideal SPe .f32) (r : Fin 100000) (c : Fin 16) : EReal :=
  pe (ix2 (⟨(ids (ix1 r)).toNat % 20, Nat.mod_lt _ (by norm_num)⟩ : Fin 20) c)

/-- The whole result: the linear part in columns 0‥111, the table part in columns 112‥127. -/
def G (x : FVec Ideal SX .f32) (ids : IVec SId 32) (W : FVec Ideal SW .f32) (b : FVec Ideal SBias .f32)
    (pe : FVec Ideal SPe .f32) : FVec Ideal SX .f32 :=
  fun i =>
    if h : (i 1).val < 112 then lin x W b (i 0) ⟨(i 1).val, h⟩
    else emb ids pe (i 0) ⟨(i 1).val - 112, by have := idx2_lt1 i; omega⟩

theorem G_lin (x : FVec Ideal SX .f32) (ids : IVec SId 32) (W : FVec Ideal SW .f32) (b : FVec Ideal SBias .f32)
    (pe : FVec Ideal SPe .f32) (r : Fin 100000) (j : Fin 112) :
    G x ids W b pe (ix2 r ⟨j.val, by have := j.isLt; omega⟩) = lin x W b r j := by
  unfold G
  rw [dif_pos (show ((ix2 r (⟨j.val, by have := j.isLt; omega⟩ : Fin 128) : SX.Idx) 1).val < 112 from j.isLt)]

theorem G_emb (x : FVec Ideal SX .f32) (ids : IVec SId 32) (W : FVec Ideal SW .f32) (b : FVec Ideal SBias .f32)
    (pe : FVec Ideal SPe .f32) (r : Fin 100000) (c : Fin 16) :
    G x ids W b pe (ix2 r ⟨112 + c.val, by have := c.isLt; omega⟩) = emb ids pe r c := by
  unfold G
  rw [dif_neg (show ¬ ((ix2 r (⟨112 + c.val, by have := c.isLt; omega⟩ : Fin 128) : SX.Idx) 1).val < 112 from by
    show ¬ (112 + c.val < 112); omega)]
  congr 1
  exact Fin.ext (by show 112 + c.val - 112 = c.val; omega)

end Cert.Spec

end
-- ==== Proof.KernelFinal.lean ====
/-
  The result array after the run, as one function of the argument arrays.

  Point t of the seven writes back rows t·16000 ‥ t·16000 + 15999 of the result — the last point only the 4000
  rows inside the array. On those rows the result block is, entry by entry, the specification read at the
  array's row: the x-block's row q is row t·16000 + q of x, the ids block's entry q is the id of that row (the ids
  were padded with zeros to 112000 and cut in seven), W and the bias row are whole, and the table block is the
  table padded with twelve zero rows — a one-hot row at an id below 20 picks the table's own row. The seven
  blocks' rows inside the array are all 100000 rows, so the array ends holding the specification everywhere.
-/
import proofs.«139606_g12386685681749_retrytranche1_195_15_alg».proof.Proof.OutAt
import proofs.«139606_g12386685681749_retrytranche1_195_15_alg».proof.Proof.HostSide
import proofs.«139606_g12386685681749_retrytranche1_195_15_alg».proof.Proof.Spec
import Idealize.ShloMosaic.Lib.Pipeline.Value

set_option maxRecDepth 16384

noncomputable section

namespace Cert.KernelIdeal.Val

open Cert.KernelIdeal Cert.KernelIdeal.Gen Cert.KernelIdeal.Body Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The specification at core `c`'s argument arrays. -/
def GK (c : Dev nD) : S100000x128.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps, decided over the grid: the x, ids and result blocks move with the point along their
    leading axis, the other three stay; the result's block is cut to 4000 rows at the last point only. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (t.val < 6 → win0_5.xsize (grid0.coords t) (0 : Fin 2) = 16000)
    ∧ (t.val = 6 → win0_5.xsize (grid0.coords t) (0 : Fin 2) = 4000)
    ∧ t.val < 7 :=
  (by decide +kernel : ∀ t : Fin grid0.N, _)

/-! ## The input blocks read at an entry -/

/-- Row `q` of the x-block at point `t`, where the fetch filled it, is row `t·16000 + q` of `x`. -/
theorem xfill_apply (c : Dev nD) (t : Fin cfg0.N) (q : Fin 16000) (hq : q.val < win0_0.xsize (grid0.coords t) (0 : Fin 2))
    (hrow : t.val * 16000 + q.val < 100000) (k : Fin 128) :
    xfill m c t (ix2 q k) = m ((c : Thread nD τ).loc main_arg0) (ix2 (⟨t.val * 16000 + q.val, hrow⟩ : Fin 100000) k) := by
  have hm : (cfg0.win 0).moved (cfg0.grid.coords t) (ix2 q k) = true :=
    ((cfg0.win 0).moved_iff _ _).mpr fun a => by
      match a with
      | ⟨0, _⟩ => exact hq
      | ⟨1, _⟩ =>
        show k.val < win0_0.xsize (grid0.coords t) (1 : Fin 2)
        rw [(xsize_facts t).2.1]; exact k.isLt
  unfold xfill Window.fill; rw [dif_pos hm]
  show V m c main_arg0 (((cfg0.win 0).blk t).view.emb _) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 16000 + 1 * q.val = t.val * 16000 + q.val; rw [e0]; omega
  | ⟨1, _⟩ => show win0_0.index t (1 : Fin 2) * 128 + 1 * k.val = k.val; rw [e1]; omega

/-- Entry `q` of the ids block at point `t` is the id of row `t·16000 + q`, where that row exists. -/
theorem ids_apply (c : Dev nD) (t : Fin cfg0.N) (q : Fin 16000) (hrow : t.val * 16000 + q.val < 100000) :
    iblk m c 1 t (ix3 (0 : Fin 1) (0 : Fin 1) q)
      = m ((c : Thread nD τ).loc main_arg1) (ix1 (⟨t.val * 16000 + q.val, hrow⟩ : Fin 100000)) := by
  obtain ⟨-, -, e0, e1, e2, -, -, -, -, -, -, -, -, -, -, ht⟩ := idx_facts t
  show V m c main_v3 (((cfg0.win 1).blk t).view.emb (ix3 (0 : Fin 1) (0 : Fin 1) q)) = _
  have he : ((cfg0.win 1).blk t).view.emb (ix3 (0 : Fin 1) (0 : Fin 1) q)
      = (ix3 (⟨t.val, ht⟩ : Fin 7) (0 : Fin 1) q : S7x1x16000.Idx) := by
    funext a; apply Fin.ext
    match a with
    | ⟨0, _⟩ => show win0_1.index t (0 : Fin 3) * 1 + 1 * 0 = t.val; rw [e0]; omega
    | ⟨1, _⟩ => show win0_1.index t (1 : Fin 3) * 1 + 1 * 0 = 0; rw [e1]
    | ⟨2, _⟩ => show win0_1.index t (2 : Fin 3) * 16000 + 1 * q.val = q.val; rw [e2]; omega
  rw [he]
  exact Cert.HostSide.V_v3 m c ⟨t.val, ht⟩ q hrow

/-- The W block is W. -/
theorem w_apply (c : Dev nD) (t : Fin cfg0.N) (k : Fin 128) (j : Fin 112) :
    iblk m c 2 t (ix2 k j) = m ((c : Thread nD τ).loc main_arg2) (ix2 k j) := by
  obtain ⟨-, -, -, -, -, e0, e1, -⟩ := idx_facts t
  show V m c main_arg2 (((cfg0.win 2).blk t).view.emb (ix2 k j)) = _
  rw [V_main_arg2]
  refine congrArg (m ((c : Thread nD τ).loc main_arg2)) (funext fun a => Fin.ext ?_)
  match a with
  | ⟨0, _⟩ => show win0_2.index t (0 : Fin 2) * 128 + 1 * k.val = k.val; rw [e0]; omega
  | ⟨1, _⟩ => show win0_2.index t (1 : Fin 2) * 112 + 1 * j.val = j.val; rw [e1]; omega

/-- The bias block's one row is the bias. -/
theorem b_apply (c : Dev nD) (t : Fin cfg0.N) (j : Fin 112) :
    iblk m c 3 t (ix2 (0 : Fin 1) j) = m ((c : Thread nD τ).loc main_arg3) (ix1 j) := by
  obtain ⟨-, -, -, -, -, -, -, e0, e1, -⟩ := idx_facts t
  show V m c main_v4 (((cfg0.win 3).blk t).view.emb (ix2 (0 : Fin 1) j)) = _
  have he : ((cfg0.win 3).blk t).view.emb (ix2 (0 : Fin 1) j) = (ix2 (0 : Fin 1) j : S1x112.Idx) := by
    funext a; apply Fin.ext
    match a with
    | ⟨0, _⟩ => show win0_3.index t (0 : Fin 2) * 1 + 1 * 0 = 0; rw [e0]
    | ⟨1, _⟩ => show win0_3.index t (1 : Fin 2) * 112 + 1 * j.val = j.val; rw [e1]; omega
  rw [he]
  exact Cert.HostSide.V_v4 m c j

/-- The table block is the table with twelve zero rows under it. -/
theorem pe_apply (c : Dev nD) (t : Fin cfg0.N) (k : Fin 32) (cc : Fin 16) :
    iblk m c 4 t (ix2 k cc)
      = if h : k.val < 20 then m ((c : Thread nD τ).loc main_arg4) (ix2 (⟨k.val, h⟩ : Fin 20) cc) else (0 : EReal) := by
  obtain ⟨-, -, -, -, -, -, -, -, -, e0, e1, -⟩ := idx_facts t
  show V m c main_v7 (((cfg0.win 4).blk t).view.emb (ix2 k cc)) = _
  have he : ((cfg0.win 4).blk t).view.emb (ix2 k cc) = (ix2 k cc : S32x16.Idx) := by
    funext a; apply Fin.ext
    match a with
    | ⟨0, _⟩ => show win0_4.index t (0 : Fin 2) * 32 + 1 * k.val = k.val; rw [e0]; omega
    | ⟨1, _⟩ => show win0_4.index t (1 : Fin 2) * 16 + 1 * cc.val = cc.val; rw [e1]; omega
  rw [he]
  exact Cert.HostSide.V_v7 m c k cc

/-! ## What each point writes back -/

/-- WHAT POINT `t` WRITES BACK is block `t`, cut at the array's end, of the specification. -/
theorem flushed5_eq (c : Dev nD) (hids : ∀ r : Fin 100000, (m ((c : Thread nD τ).loc main_arg1) (ix1 r)).toNat < 20)
    (t : Fin cfg0.N) :
    (dats m 0 c).flushed 5 t = ((cfg0.win 5).blk t).view.read (Elt Ideal) (GK m c) := by
  show (cfg0.win 5).cut (grid0.coords t) ((dats m 0 c).after 5 t) = _
  rw [after0_5]
  funext y
  obtain ⟨-, -, -, -, -, -, -, -, -, -, -, i0, i1, xa, xb, ht⟩ := idx_facts t
  obtain ⟨e0, e1, e2⟩ := xsize_facts t
  have h0 : (y 0).val < win0_5.xsize (grid0.coords t) (0 : Fin 2) := (y 0).isLt
  have h1 : (y 1).val < win0_5.xsize (grid0.coords t) (1 : Fin 2) := (y 1).isLt
  rw [e2] at h1
  have hq : (y 0).val < 16000 := by
    have := win0_5.xsize_le (grid0.coords t) (0 : Fin 2)
    have h16 : win0_5.size (0 : Fin 2) = 16000 := rfl
    omega
  have hrow : t.val * 16000 + (y 0).val < 100000 := by
    rcases Nat.lt_or_ge t.val 6 with h | h
    · omega
    · have h6 : t.val = 6 := by omega
      have := xb h6; omega
  have hq0 : (y 0).val < win0_0.xsize (grid0.coords t) (0 : Fin 2) := by rw [← e0]; exact h0
  have hx : (cfg0.win 5).xinj (cfg0.grid.coords t) y
      = ix2 (⟨(y 0).val, hq⟩ : Fin 16000) (⟨(y 1).val, h1⟩ : Fin 128) := by
    funext a; apply Fin.ext
    match a with
    | ⟨0, _⟩ => rfl
    | ⟨1, _⟩ => rfl
  have hemb : ((cfg0.win 5).blk t).view.emb y
      = (ix2 (⟨t.val * 16000 + (y 0).val, hrow⟩ : Fin 100000) (⟨(y 1).val, h1⟩ : Fin 128) : S100000x128.Idx) := by
    funext a; apply Fin.ext
    match a with
    | ⟨0, _⟩ => show win0_5.index t (0 : Fin 2) * 16000 + 1 * (y 0).val = t.val * 16000 + (y 0).val; rw [i0]; omega
    | ⟨1, _⟩ => show win0_5.index t (1 : Fin 2) * 128 + 1 * (y 1).val = (y 1).val; rw [i1]; omega
  show out5 (F := Ideal) _ _ _ _ _ ((cfg0.win 5).xinj (cfg0.grid.coords t) y) = GK m c (((cfg0.win 5).blk t).view.emb y)
  rw [hx, hemb]
  unfold GK
  by_cases hj : (y 1).val < 112
  · -- a column of the linear part
    rw [show (⟨(y 1).val, h1⟩ : Fin 128) = (⟨(⟨(y 1).val, hj⟩ : Fin 112).val, by omega⟩ : Fin 128) from Fin.ext rfl,
      out5_lin, Cert.Spec.G_lin]
    unfold Cert.Spec.lin
    rw [b_apply m c t]
    refine congrArg (· + _) (Finset.sum_congr rfl fun k _ => ?_)
    rw [xfill_apply m c t _ hq0 hrow k, w_apply m c t]
  · -- a column of the table part
    rw [show (⟨(y 1).val, h1⟩ : Fin 128) = (⟨112 + (⟨(y 1).val - 112, by omega⟩ : Fin 16).val, by show 112 + ((y 1).val - 112) < 128; omega⟩ : Fin 128) from
      Fin.ext (by show (y 1).val = 112 + ((y 1).val - 112); omega), out5_emb, Cert.Spec.G_emb]
    unfold Cert.Spec.emb
    rw [ids_apply m c t _ hrow]
    have hv := hids ⟨t.val * 16000 + (⟨(y 0).val, hq⟩ : Fin 16000).val, hrow⟩
    rw [hot_sum _ (Nat.lt_trans hv (by decide : 20 < 32)) (fun k => iblk m c 4 t (ix2 k _)), pe_apply m c t, dif_pos hv]
    refine congrArg (fun r => m ((c : Thread nD τ).loc main_arg4) (ix2 r _)) (Fin.ext ?_)
    exact (Nat.mod_eq_of_lt hv).symm

/-! ## The seven blocks cover the array -/

/-- An index of the array is in point `t`'s block iff each coordinate is in the block's range, cut at the array's end. -/
theorem mem_blk5 (t : Fin cfg0.N) (i : S100000x128.Idx) :
    i ∈ ((cfg0.win 5).blk t).view.set ↔ ∀ a : Fin 2, win0_5.index t a * S16000x128.size a ≤ (i a).val
      ∧ (i a).val < win0_5.index t a * S16000x128.size a + win0_5.xsize (grid0.coords t) a := by
  show i ∈ ((View.whole main_v8).slice (win0_5.rect t)).set ↔ _
  rw [View.set_slice_whole, Rect.mem_set_unit]
  exact Iff.rfl

/-- Row `r` of the array is in the block of point `r / 16000`. -/
theorem covered5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 7 := N_0
  let t : Fin cfg0.N := ⟨(i 0).val / 16000, by show (i 0).val / 16000 < grid0.N; omega⟩
  have htv : t.val = (i 0).val / 16000 := rfl
  obtain ⟨-, -, -, -, -, -, -, -, -, -, -, i0, i1, xa, xb, ht⟩ := idx_facts t
  obtain ⟨-, -, e2⟩ := xsize_facts t
  refine ⟨t, flush0_5 t, ?_⟩
  rw [mem_blk5]
  intro a
  match a with
  | ⟨0, _⟩ =>
    show win0_5.index t (0 : Fin 2) * 16000 ≤ (i 0).val ∧ (i 0).val < win0_5.index t (0 : Fin 2) * 16000 + win0_5.xsize (grid0.coords t) (0 : Fin 2)
    rw [i0]
    rcases Nat.lt_or_ge t.val 6 with h | h
    · rw [xa h]; omega
    · have h6 : t.val = 6 := by omega
      rw [xb h6]; omega
  | ⟨1, _⟩ =>
    show win0_5.index t (1 : Fin 2) * 128 ≤ (i 1).val ∧ (i 1).val < win0_5.index t (1 : Fin 2) * 128 + win0_5.xsize (grid0.coords t) (1 : Fin 2)
    rw [i1, e2]; omega

/-- THE RESULT ARRAY after the run is the specification of the argument arrays. -/
theorem final5 (c : Dev nD) (hids : ∀ r : Fin 100000, (m ((c : Thread nD τ).loc main_arg1) (ix1 r)).toNat < 20) :
    (dats m 0 c).arrAt 5 cfg0.N = GK m c :=
  (dats m 0 c).arrAt_eq_of_cover 5 (GK m c) (fun t _ => flushed5_eq m c hids t) covered5

/-! ## The run, read -/

/-- Every weakly fair execution of the kernel's @main terminates, faulting nowhere, with the result array at the
    specification of the argument arrays and the arguments unchanged. -/
theorem run (hids : ∀ (c : Dev nD) (r : Fin 100000), (m ((c : Thread nD τ).loc main_arg1) (ix1 r)).toNat < 20) :
    θ_run defs (onTc (τ := τ) (main (F := Ideal))) ⟨m, fun _ => 0, ρ⟩ fun r => ∀ c : Dev nD,
      r.2.mem ((c.tc : Thread nD τ).loc main_v8) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c (hids c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.RefRun.lean ====
/-
  The reference program's run, read back.

  The reference's @main calls the outlined table lookup (which calls the outlined three-way select), then
  multiplies, adds the bias and concatenates. A call means the callee's body on the call's own buffers, so
  @main is one straight line of twenty-eight host operations: the lookup's twenty-three (the select's one
  among them), then the product, the bias' two broadcasts, the sum and the concatenation. Every buffer ends at
  the fold of the operations over the launch contents; at the result buffer that fold is the term refTerm of
  the five argument arrays, and the argument buffers are written by no operation.
-/
import proofs.«139606_g12386685681749_retrytranche1_195_15_alg».proof.Proof.Gen.ReferenceIdeal
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's twenty-eight operations in order, the two calls unfolded over the calls' own buffers. -/
abbrev ops : List (HloOp τ sig (Elt F)) :=
  [ TRef.nullary main_call0.c (constantI S_ 32 0#32),
    TRef.unary main_call0.c main_call0.v0 (broadcastInDim S100000 ![] bcast_S_S100000),
    TRef.binary (.of main_arg1) main_call0.v0 main_call0.v1 (cmpi .slt),
    TRef.nullary main_call0.c_0 (constantI S_ 32 20#32),
    TRef.unary main_call0.c_0 main_call0.v2 (broadcastInDim S100000 ![] bcast_S_S100000),
    TRef.binary (.of main_arg1) main_call0.v2 main_call0.v3 addi,
    TRef.ternary main_call0.v1 main_call0.v3 (.of main_arg1) main_call0.call0.v0 select,
    TRef.unary main_call0.call0.v0 main_call0.v5 (broadcastInDim S100000x1 ![0] bcast_S100000_S100000x1_0),
    TRef.nullary main_call0.c_1 (constantI S1 32 19#32),
    TRef.nullary main_call0.c_2 (constantI S_ 32 0#32),
    TRef.unary main_call0.c_2 main_call0.v6 (broadcastInDim S100000x1 ![] bcast_S_S100000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100000x1 ![0, 1] bcast_S1x1_S100000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x1_S100000_d1 h_S_),
    TRef.binary (.of main_arg4) main_call0.v5 main_call0.v13 (fun x i => Host.gather gather_S20x16_S100000x1_S100000x16_1_0_n_n_0_1_116 x i),
    TRef.unary main_call0.v12 main_call0.v14 (broadcastInDim S100000x16 ![0] bcast_S100000_S100000x16_0),
    TRef.nullary main_call0.cst (constant S_ .f32 0x7FC00000#32),
    TRef.unary main_call0.cst main_call0.v15 (broadcastInDim S100000x16 ![] bcast_S_S100000x16),
    TRef.ternary main_call0.v14 main_call0.v13 main_call0.v15 main_call0.v16 select,
    binary main_arg0 main_arg2 main_v1 ((fun l r => Host.dotGeneral dot_S100000x128_S128x112_S100000x112_1_0_0_1_n_n none l r) : (⟨S100000x128, .f32⟩ : BufTy).Contents (Elt F) → (⟨S128x112, .f32⟩ : BufTy).Contents (Elt F) → (⟨S100000x112, .f32⟩ : BufTy).Contents (Elt F)),
    unary main_arg3 main_v2 (broadcastInDim S1x112 ![1] bcast_S112_S1x112_1 : (⟨S112, .f32⟩ : BufTy).Contents (Elt F) → (⟨S1x112, .f32⟩ : BufTy).Contents (Elt F)),
    unary main_v2 main_v3 (broadcastInDim S100000x112 ![0, 1] bcast_S1x112_S100000x112_0_1 : (⟨S1x112, .f32⟩ : BufTy).Contents (Elt F) → (⟨S100000x112, .f32⟩ : BufTy).Contents (Elt F)),
    binary main_v1 main_v3 main_v4 (addf : (⟨S100000x112, .f32⟩ : BufTy).Contents (Elt F) → (⟨S100000x112, .f32⟩ : BufTy).Contents (Elt F) → (⟨S100000x112, .f32⟩ : BufTy).Contents (Elt F)),
    binary main_v4 main_v0 main_v5 ((fun a b => concatenate S100000x128 1 [⟨S100000x112, a⟩, ⟨S100000x16, b⟩] concatenates_S100000x112_S100000x16_S100000x128_d1) : (⟨S100000x112, .f32⟩ : BufTy).Contents (Elt F) → (⟨S100000x16, .f32⟩ : BufTy).Contents (Elt F) → (⟨S100000x128, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., binary_bufs_sub ..⟩

/-! ## The composed term -/

/-- The table row each id names, as the lookup computes it: the id, or the id plus twenty where the id is
    negative; as a one-column array of start indices. -/
def rowIdx (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 20#32)))
      ids)

/-- Per row, whether that start index lies in 0‥19: both compares, conjoined, and-reduced over the unit axis. -/
def inRange (ids : IVec S100000 32) : IVec S100000 1 :=
  Host.reduce IntOp.andi
    (andi (cmpi .sge (rowIdx ids) (broadcastInDim S100000x1 ![] bcast_S_S100000x1 (constantI S_ 32 0#32)))
      (cmpi .sle (rowIdx ids)
        (broadcastInDim S100000x1 ![0, 1] bcast_S1x1_S100000x1_0_1
          (broadcastInDim S1x1 ![1] bcast_S1_S1x1_1 (constantI S1 32 19#32)))))
    (constantI S_ 1 1#1) reducesTo_S100000x1_S100000_d1 h_S_

/-- The lookup's result: the gathered table rows where the index is in range, the fill constant elsewhere. -/
def taken (ids : IVec S100000 32) (pe : FVec F S20x16 .f32) : FVec F S100000x16 .f32 :=
  select (broadcastInDim S100000x16 ![0] bcast_S100000_S100000x16_0 (inRange ids))
    (Host.gather gather_S20x16_S100000x1_S100000x16_1_0_n_n_0_1_116 pe (rowIdx ids))
    (broadcastInDim S100000x16 ![] bcast_S_S100000x16 (constant S_ .f32 0x7FC00000#32))

/-- The linear layer: the product plus the bias broadcast down the rows. -/
def linear (x : FVec F S100000x128 .f32) (W : FVec F S128x112 .f32) (b : FVec F S112 .f32) : FVec F S100000x112 .f32 :=
  addf (Host.dotGeneral dot_S100000x128_S128x112_S100000x112_1_0_0_1_n_n none x W)
    (broadcastInDim S100000x112 ![0, 1] bcast_S1x112_S100000x112_0_1 (broadcastInDim S1x112 ![1] bcast_S112_S1x112_1 b))

/-- What the reference computes from the five argument arrays: the linear layer and the looked-up rows,
    side by side. -/
def refTermF (x : FVec F S100000x128 .f32) (ids : IVec S100000 32) (W : FVec F S128x112 .f32) (b : FVec F S112 .f32)
    (pe : FVec F S20x16 .f32) : FVec F S100000x128 .f32 :=
  concatenate S100000x128 1 [⟨S100000x112, linear x W b⟩, ⟨S100000x16, taken ids pe⟩]
    concatenates_S100000x112_S100000x16_S100000x128_d1

/-- The same at the ideal instance, where the claim is stated. -/
def refTerm (x : FVec Ideal S100000x128 .f32) (ids : IVec S100000 32) (W : FVec Ideal S128x112 .f32) (b : FVec Ideal S112 .f32)
    (pe : FVec Ideal S20x16 .f32) : FVec Ideal S100000x128 .f32 :=
  refTermF x ids W b pe

attribute [local irreducible] Host.reduce Host.gather concatenate broadcastInDim in
/-- The fold at the result buffer is that term of the argument buffers' contents. -/
theorem out_eq (V : Valuation τ sig (Elt F)) :
    after ops V (main_v5 : DevRef τ sig)
      = refTermF (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp

/-- On every device, from any memory with zero counters: every weakly fair execution of the reference's @main
    terminates with the result buffer at refTerm of the argument buffers' launch contents and the argument
    buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v5).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.RefSide

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.RefRead.lean ====
/-
  The reference's composed term, read at an index: it is the common specification.

  Row r of the result: a column j < 112 is the first piece of the concatenation, the sum over k of
  x[r,k] * W[k,j] plus b[j] (the bias reaches (r, j) through its two broadcasts); a column 112 + c is the second
  piece, the looked-up table. Where 0 ≤ ids[r] < 20 the lookup's index arithmetic is the identity: the id is not
  negative, so the three-way select keeps it; both range compares hold, so their conjunction and-reduced over the
  unit axis is 1 and the final select takes the gathered row; the gather clamps the id into 0‥19, where it
  already lies. So the entry is pe[ids[r], c].
-/
import proofs.«139606_g12386685681749_retrytranche1_195_15_alg».proof.Proof.RefRun
import proofs.«139606_g12386685681749_retrytranche1_195_15_alg».proof.Proof.Spec
import proofs.«139606_g12386685681749_retrytranche1_195_15_alg».proof.Proof.LibMatmulSum
import proofs.«139606_g12386685681749_retrytranche1_195_15_alg».proof.Proof.LibRowScatter
import Idealize.ShloMosaic.Lib.Pipeline.Value
import Idealize.ShloMosaic.Lib.IdealHost
import Idealize.ShloMosaic.Lib.ReduceAll

noncomputable section

namespace Cert.RefSide

open Cert.ReferenceIdeal Cert.ReferenceIdeal.Gen Idealize.ShloMosaic Idealize.ShloMosaic.ValueIdx
open scoped BigOperators

/-! ## Words below twenty -/

section Words

variable {v : BitVec 32}

theorem toInt_of_lt_twenty (h : v.toNat < 20) : v.toInt = (v.toNat : Int) :=
  BitVec.toInt_eq_toNat_of_lt (by omega)

/-- A word below twenty is not negative. -/
theorem cmpi_slt_zero (h : v.toNat < 20) : IntOp.cmpi .slt v 0#32 = 0#1 := by
  apply eq_zero_of_ne_one
  rw [IntOp.cmpi_slt, toInt_of_lt_twenty h, show (0#32 : BitVec 32).toInt = 0 from by decide]
  omega

theorem cmpi_sge_zero (h : v.toNat < 20) : IntOp.cmpi .sge v 0#32 = 1#1 := by
  rw [IntOp.cmpi_sge, toInt_of_lt_twenty h, show (0#32 : BitVec 32).toInt = 0 from by decide]
  omega

theorem cmpi_sle_nineteen (h : v.toNat < 20) : IntOp.cmpi .sle v 19#32 = 1#1 := by
  rw [IntOp.cmpi_sle, toInt_of_lt_twenty h, show (19#32 : BitVec 32).toInt = 19 from by decide]
  omega

/-- Read signed and clamped into 0‥19, a word below twenty is itself. -/
theorem clamp_of_lt_twenty (h : v.toNat < 20) : min v.toInt.toNat (20 - 1) = v.toNat := by
  rw [toInt_of_lt_twenty h]
  omega

end Words

/-! ## An and-reduction of ones -/

/-- A reduction by and, from 1, of an array of ones is 1 at every result index. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a]
    exact ih

/-! ## The pieces at an index -/

/-- The gather's dimension record is the row gather's. -/
theorem gather_eq : gather_S20x16_S100000x1_S100000x16_1_0_n_n_0_1_116
    = RowScatter.rowGatherDims 20 100000 16 gather_S20x16_S100000x1_S100000x16_1_0_n_n_0_1_116_wf := rfl

section Pieces

variable (ids : IVec S100000 32) (hids : ∀ r : Fin 100000, (ids (ix1 r)).toNat < 20)
include hids

/-- The start index of row r is the id of r. -/
theorem rowIdx_apply (r : Fin 100000) (z : Fin 1) : rowIdx ids (ix2 r z) = ids (ix1 r) := by
  unfold rowIdx
  refine (broadcastInDim_apply _ _ _ (ix2 r z) (ix1 r) (fun a => match a with | ⟨0, _⟩ => rfl)).trans ?_
  rw [select_apply]
  have hc : cmpi .slt ids (broadcastInDim S100000 ![] bcast_S_S100000 (constantI S_ 32 0#32)) (ix1 r) = 0#1 :=
    cmpi_slt_zero (hids r)
  rw [hc, select_zero]

/-- Every row's index is in range. -/
theorem inRange_apply (r : Fin 100000) : inRange ids (ix1 r) = 1#1 := by
  unfold inRange
  refine reduce_andi_of_all_one _ _ _ _ _ rfl (fun i => ?_)
  obtain ⟨q, z, rfl⟩ : ∃ (q : Fin 100000) (z : Fin 1), i = ix2 q z := ⟨i 0, i 1, eq_ix2 i⟩
  show IntOp.andi (IntOp.cmpi .sge (rowIdx ids (ix2 q z)) 0#32) (IntOp.cmpi .sle (rowIdx ids (ix2 q z)) 19#32) = 1#1
  rw [rowIdx_apply ids hids q z, cmpi_sge_zero (hids q), cmpi_sle_nineteen (hids q)]
  rfl

/-- The looked-up entry (r, c) is entry c of the table row the id of r names. -/
theorem taken_apply (pe : FVec Ideal S20x16 .f32) (r : Fin 100000) (c : Fin 16) :
    taken ids pe (ix2 r c) = pe (ix2 (⟨(ids (ix1 r)).toNat, hids r⟩ : Fin 20) c) := by
  unfold taken
  rw [select_apply]
  have hc : broadcastInDim S100000x16 ![0] bcast_S100000_S100000x16_0 (inRange ids) (ix2 r c) = 1#1 :=
    (broadcastInDim_apply _ _ _ (ix2 r c) (ix1 r) (fun a => match a with | ⟨0, _⟩ => rfl)).trans (inRange_apply ids hids r)
  rw [hc, select_one, gather_eq]
  refine (RowScatter.rowGather_apply (by decide) gather_S20x16_S100000x1_S100000x16_1_0_n_n_0_1_116_wf pe (rowIdx ids) r c).trans ?_
  have hr : rowIdx ids (ix2 r (0 : Fin 1)) = ids (ix1 r) := rowIdx_apply ids hids r 0
  exact congrArg (fun n : Fin 20 => pe (ix2 n c)) (Fin.ext (by
    show min (rowIdx ids (ix2 r (0 : Fin 1))).toInt.toNat (20 - 1) = (ids (ix1 r)).toNat
    rw [hr]; exact clamp_of_lt_twenty (hids r)))

end Pieces

/-- The linear layer at (r, j): the row of x against the column of W, plus the bias. -/
theorem linear_apply (x : FVec Ideal S100000x128 .f32) (W : FVec Ideal S128x112 .f32) (b : FVec Ideal S112 .f32)
    (r : Fin 100000) (j : Fin 112) :
    linear x W b (ix2 r j) = (∑ k : Fin 128, x (ix2 r k) * W (ix2 k j)) + b (ix1 j) := by
  unfold linear
  rw [addf_apply]
  congr 1
  · exact Cert.GraphConv.dotGeneral_sum dot_S100000x128_S128x112_S100000x112_1_0_0_1_n_n none .single
      (by decide) (by decide) (fun _ _ => rfl) (fun _ _ => rfl) (fun _ _ => rfl) (fun _ _ => rfl) x W (ix2 r j)
  · refine (broadcastInDim_apply _ _ _ (ix2 r j) (ix2 (0 : Fin 1) j)
      (fun a => match a with | ⟨0, _⟩ => rfl | ⟨1, _⟩ => rfl)).trans ?_
    exact broadcastInDim_apply _ _ _ (ix2 (0 : Fin 1) j) (ix1 j) (fun a => match a with | ⟨0, _⟩ => rfl)

/-! ## The whole term -/

/-- Where every id lies in 0‥19, the reference's term is the common specification. -/
theorem refTerm_eq (x : FVec Ideal S100000x128 .f32) (ids : IVec S100000 32) (W : FVec Ideal S128x112 .f32)
    (b : FVec Ideal S112 .f32) (pe : FVec Ideal S20x16 .f32)
    (hids : ∀ r : Fin 100000, (ids (ix1 r)).toNat < 20) :
    refTerm x ids W b pe = Cert.Spec.G x ids W b pe := by
  funext i
  obtain ⟨r, n, rfl⟩ : ∃ (r : Fin 100000) (n : Fin 128), i = ix2 r n := ⟨i 0, i 1, eq_ix2 i⟩
  unfold refTerm refTermF
  by_cases h : n.val < 112
  · -- a column of the linear layer: the first piece
    have hn : n = (⟨(⟨n.val, h⟩ : Fin 112).val, by omega⟩ : Fin 128) := Fin.ext rfl
    refine (concatenate_pair_apply_left (1 : Fin 2) (linear x W b) (taken ids pe)
      concatenates_S100000x112_S100000x16_S100000x128_d1 (ix2 r n) rfl (ix2 r (⟨n.val, h⟩ : Fin 112))
      (fun a => match a with | ⟨0, _⟩ => rfl | ⟨1, _⟩ => rfl)).trans ?_
    rw [linear_apply]
    conv_rhs => rw [hn, Cert.Spec.G_lin]
    rfl
  · -- a column of the table part: the second piece
    have h128 := n.isLt
    have hn : n = (⟨112 + (⟨n.val - 112, by omega⟩ : Fin 16).val, by omega⟩ : Fin 128) :=
      Fin.ext (by show n.val = 112 + (n.val - 112); omega)
    refine (concatenate_pair_apply_right (1 : Fin 2) (linear x W b) (taken ids pe)
      concatenates_S100000x112_S100000x16_S100000x128_d1 (ix2 r n) rfl rfl (ix2 r (⟨n.val - 112, by omega⟩ : Fin 16))
      (fun a => match a with | ⟨0, _⟩ => fun _ => rfl | ⟨1, _⟩ => fun hne => absurd rfl hne)
      (by show n.val - 112 + 112 = n.val; omega)).trans ?_
    rw [taken_apply ids hids]
    conv_rhs => rw [hn, Cert.Spec.G_emb]
    unfold Cert.Spec.emb
    exact congrArg (fun q : Fin 20 => pe (ix2 q _)) (Fin.ext (Nat.mod_eq_of_lt (hids r)).symm)

end Cert.RefSide

end
-- ==== Proof.PreIds.lean ====
/-
  What the precondition says of the index array: every entry of the `i32` array of row ids is a
  table row, `0 ≤ ids[r] < 20` read signed, hence `ids[r].toNat < 20`.

  The predicate is a conjunction of five `all`-reductions; the last one reduces, by `and`, the array
  `(ids ≥ 0) ∧ (ids < 20)` (signed comparisons against broadcast constants). That the whole predicate
  is 1 gives that this reduction is 1, hence that each of its operand's entries is 1, hence both
  comparisons hold at each entry.
-/
import proofs.«139606_g12386685681749_retrytranche1_195_15_alg».proof.Defs
import proofs.«139606_g12386685681749_retrytranche1_195_15_alg».proof.Proof.Gen.Pre_finite_inputs
import Idealize.ShloMosaic.Lib.ReduceAll
import Idealize.ShloMosaic.Lib.ValueIdx

noncomputable section

namespace Cert.HostSide

open Idealize.ShloMosaic Idealize.SL.Sem

/-- The rank-zero shape has one index. -/
instance subsingleton_S_ : Subsingleton Cert.Pre_finite_inputs.S_.Idx := ⟨fun a b => funext fun d => d.elim0⟩

/-- A 32-bit word that lies, read signed, between the words 0 and 20 is, read unsigned, below 20. -/
theorem toNat_lt_twenty (v : BitVec 32) (h0 : (0#32 : BitVec 32).toInt ≤ v.toInt) (h1 : v.toInt < (20#32 : BitVec 32).toInt) :
    v.toNat < 20 := by
  have e0 : (0#32 : BitVec 32).toInt = 0 := by decide
  have e1 : (20#32 : BitVec 32).toInt = 20 := by decide
  rw [e0] at h0; rw [e1] at h1
  rw [BitVec.toInt_eq_toNat_cond] at h0 h1
  have := v.isLt
  by_cases hc : 2 * v.toNat < 2 ^ 32
  · rw [if_pos hc] at h0 h1; omega
  · rw [if_neg hc] at h0 h1; omega

/-- The predicate, all ones, bounds every row id: stated over the predicate's own arguments. -/
theorem fn_ids_lt [Cert.Pre_finite_inputs.Facts]
    (a0 : FVec Ideal Cert.Pre_finite_inputs.S100000x128 .f32) (a1 : IVec Cert.Pre_finite_inputs.S100000 32)
    (a2 : FVec Ideal Cert.Pre_finite_inputs.S128x112 .f32) (a3 : FVec Ideal Cert.Pre_finite_inputs.S112 .f32)
    (a4 : FVec Ideal Cert.Pre_finite_inputs.S20x16 .f32)
    (h : Cert.Pre_finite_inputs.fn (F := Ideal) a0 a1 a2 a3 a4 = (fun _ => 1#1)) (r : Fin 100000) :
    (a1 (ValueIdx.ix1 r)).toNat < 20 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ValueIdx.ix1 r)
  obtain ⟨h3, h4⟩ := IntOp.andi_eq_one.1 h2
  exact toNat_lt_twenty _ (IntOp.cmpi_sge.1 h3) (IntOp.cmpi_slt.1 h4)

/-- Under the claim's precondition every row id of the kernel's index argument is below 20. -/
theorem ids_lt (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) (r : Fin 100000) :
    ((m ((c.tc : Thread Cert.KernelIdeal.nD Cert.KernelIdeal.τ).loc Cert.KernelIdeal.main_arg1)) (ValueIdx.ix1 r)).toNat < 20 :=
  @fn_ids_lt Cert.Pre_finite_inputs.Gen.facts _ _ _ _ _ (h c) r

end Cert.HostSide

end
-- ==== Proof.lean ====
/-
  The certificate's claims, assembled.

  The kernel computes out = concat(x·W + b, pe[batch]) over 100000 rows in seven blocks of 16000 rows; the
  reference computes the same by a matrix product and a row lookup of the 20-row table. Both are read at the ideal
  values, where a float is an extended real and every operation is exact, on the domain where every id is a row
  number of the table, 0 ≤ batch < 20.

  * Frames. Each of the kernel's two printings runs to the end, faults nowhere and leaves its five arguments as
    launched: the pipeline's frame run with the body's triple at a generic grid point, the result window's
    contents forgotten (the last block overhangs the arrays, and nothing is said of the rows past their end). The
    reference is a straight line of host operations: its run, with the result dropped.
  * The idealization rewrote nothing, so there is nothing to preserve.
  * Equal results. The kernel's result array ends at the specification `Spec.G` of its arguments — per row, the
    row of x against the columns of W plus the bias in columns 0‥111, and the table row of the id in columns
    112‥127: the one-hot product against the zero-padded table selects exactly that row when the id is below 20.
    The reference's composed term is the same function: its lookup wraps negative ids and answers out-of-range
    ones with a junk value, neither of which happens below 20 and at or above 0. No finiteness is used: a sum of
    products is read term by term on both sides, and 0 · x = 0, 1 · x = x hold for every extended real.
-/
import proofs.«139606_g12386685681749_retrytranche1_195_15_alg».proof.Defs
import proofs.«139606_g12386685681749_retrytranche1_195_15_alg».proof.Proof.Gen.Kernel
import proofs.«139606_g12386685681749_retrytranche1_195_15_alg».proof.Proof.Gen.KernelIdeal
import proofs.«139606_g12386685681749_retrytranche1_195_15_alg».proof.Proof.Gen.ReferenceIdeal
import proofs.«139606_g12386685681749_retrytranche1_195_15_alg».proof.Proof.Gen.Pre_finite_inputs
import proofs.«139606_g12386685681749_retrytranche1_195_15_alg».proof.Proof.BodyBits
import proofs.«139606_g12386685681749_retrytranche1_195_15_alg».proof.Proof.BodyIdeal
import proofs.«139606_g12386685681749_retrytranche1_195_15_alg».proof.Proof.KernelFinal
import proofs.«139606_g12386685681749_retrytranche1_195_15_alg».proof.Proof.RefRun
import proofs.«139606_g12386685681749_retrytranche1_195_15_alg».proof.Proof.RefRead
import proofs.«139606_g12386685681749_retrytranche1_195_15_alg».proof.Proof.PreIds
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.RefSide.run m ρ)

/-- The two idealized programs, from memories agreeing on the arguments, end with the same result: the
    specification of the arguments, on the domain where every id is a table row. -/
theorem algebraic : Cert.algebraic_KernelIdeal_ReferenceIdeal := by
  intro m ρ m' ρ' hpre hagree
  have hids := fun c r => Cert.HostSide.ids_lt m hpre c r
  refine ⟨fun c => Cert.KernelIdeal.Val.GK m c, Cert.KernelIdeal.Val.run m ρ hids, ?_⟩
  refine (θ_run Cert.ReferenceIdeal.defs _ _).mono (fun _ h c => ⟨(h c).1.trans ?_, (h c).2⟩)
    (Cert.RefSide.run m' ρ')
  rw [(hagree c).1, (hagree c).2.1, (hagree c).2.2.1, (hagree c).2.2.2.1, (hagree c).2.2.2.2]
  exact Cert.RefSide.refTerm_eq _ _ _ _ _ (hids c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
